-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1000000x147 : Shape := ⟨2, ![1000000, 147]⟩
abbrev S1000000x21 : Shape := ⟨2, ![1000000, 21]⟩
abbrev S2x1000000 : Shape := ⟨2, ![2, 1000000]⟩
abbrev S50000 : Shape := ⟨1, ![50000]⟩
abbrev S128x128 : Shape := ⟨2, ![128, 128]⟩
abbrev S128 : Shape := ⟨1, ![128]⟩
abbrev S147x64 : Shape := ⟨2, ![147, 64]⟩
abbrev S64x128 : Shape := ⟨2, ![64, 128]⟩
abbrev S21x64 : Shape := ⟨2, ![21, 64]⟩
abbrev S256x128 : Shape := ⟨2, ![256, 128]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1000000x147 : S_.BroadcastsInDim S1000000x147 (![] : Fin 0 → Fin S1000000x147.rank)
  reducesTo_S1000000x147_S_d0_1 : S1000000x147.ReducesTo [0, 1] S_
  bcast_S_S1000000x21 : S_.BroadcastsInDim S1000000x21 (![] : Fin 0 → Fin S1000000x21.rank)
  reducesTo_S1000000x21_S_d0_1 : S1000000x21.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S147x64 : S_.BroadcastsInDim S147x64 (![] : Fin 0 → Fin S147x64.rank)
  reducesTo_S147x64_S_d0_1 : S147x64.ReducesTo [0, 1] S_
  bcast_S_S64x128 : S_.BroadcastsInDim S64x128 (![] : Fin 0 → Fin S64x128.rank)
  reducesTo_S64x128_S_d0_1 : S64x128.ReducesTo [0, 1] S_
  bcast_S_S21x64 : S_.BroadcastsInDim S21x64 (![] : Fin 0 → Fin S21x64.rank)
  reducesTo_S21x64_S_d0_1 : S21x64.ReducesTo [0, 1] S_
  bcast_S_S256x128 : S_.BroadcastsInDim S256x128 (![] : Fin 0 → Fin S256x128.rank)
  reducesTo_S256x128_S_d0_1 : S256x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part8 {F : FTy → Type} [FloatOps F] (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  main_v138

def fn_part7 {F : FTy → Type} [FloatOps F] (main_arg27 : FVec F S3x128 .f32) (main_arg28 : FVec F S128x128 .f32) (main_arg29 : FVec F S128 .f32) (main_v118 : IVec S_ 1) (main_v119 : FVec F S3x128x128 .f32) : IVec S_ 1 :=
  let main_cst_46 : FVec F S_ .f32 := constant S_ .f32 0x7F800000#32
  let main_v120 : FVec F S3x128x128 .f32 := broadcastInDim S3x128x128 ![] bcast_S_S3x128x128 main_cst_46
  let main_v121 : IVec S3x128x128 1 := cmpf .olt main_v119 main_v120
  let main_c_47 : IVec S_ 1 := constantI S_ 1 1#1
  let main_v122 : IVec S_ 1 := (fun x v => Host.reduce IntOp.andi x v reducesTo_S3x128x128_S_d0_1_2 h_S_) main_v121 main_c_47
  let main_v123 : IVec S_ 1 := andi main_v118 main_v122
  let main_v124 : FVec F S3x128 .f32 := Host.absf main_arg27
  let main_cst_48 : FVec F S_ .f32 := constant S_ .f32 0x7F800000#32
  let main_v125 : FVec F S3x128 .f32 := broadcastInDim S3x128 ![] bcast_S_S3x128 main_cst_48
  let main_v126 : IVec S3x128 1 := cmpf .olt main_v124 main_v125
  let main_c_49 : IVec S_ 1 := constantI S_ 1 1#1
  let main_v127 : IVec S_ 1 := (fun x v => Host.reduce IntOp.andi x v reducesTo_S3x128_S_d0_1 h_S_) main_v126 main_c_49
  let main_v128 : IVec S_ 1 := andi main_v123 main_v127
  let main_v129 : FVec F S128x128 .f32 := Host.absf main_arg28
  let main_cst_50 : FVec F S_ .f32 := constant S_ .f32 0x7F800000#32
  let main_v130 : FVec F S128x128 .f32 := broadcastInDim S128x128 ![] bcast_S_S128x128 main_cst_50
  let main_v131 : IVec S128x128 1 := cmpf .olt main_v129 main_v130
  let main_c_51 : IVec S_ 1 := constantI S_ 1 1#1
  let main_v132 : IVec S_ 1 := (fun x v => Host.reduce IntOp.andi x v reducesTo_S128x128_S_d0_1 h_S_) main_v131 main_c_51
  let main_v133 : IVec S_ 1 := andi main_v128 main_v132
  let main_v134 : FVec F S128 .f32 := Host.absf main_arg29
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_v133 main_v136

def fn_part6 {F : FTy → Type} [FloatOps F] (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S3x128x128 .f32 := Host.absf main_arg26
  fn_part7 (F := F) main_arg27 main_arg28 main_arg29 main_v118 main_v119

def fn_part5 {F : FTy → Type} [FloatOps F] (main_arg20 : FVec F S128 .f32) (main_arg21 : FVec F S256x128 .f32) (main_arg22 : FVec F S128 .f32) (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S256x128 .f32 := Host.absf main_arg21
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_arg27 main_arg28 main_arg29 main_v98 main_v101 main_c_39

def fn_part4 {F : FTy → Type} [FloatOps F] (main_arg16 : FVec F S128x128 .f32) (main_arg17 : FVec F S128x128 .f32) (main_arg18 : FVec F S128 .f32) (main_arg19 : FVec F S128x128 .f32) (main_arg20 : FVec F S128 .f32) (main_arg21 : FVec F S256x128 .f32) (main_arg22 : FVec F S128 .f32) (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_v83 main_v84 main_cst_32

def fn_part3 {F : FTy → Type} [FloatOps F] (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128 .f32) (main_arg21 : FVec F S256x128 .f32) (main_arg22 : FVec F S128 .f32) (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_arg29 main_v63 main_v67

def fn_part2 {F : FTy → Type} [FloatOps F] (main_arg9 : FVec F S21x64 .f32) (main_arg10 : FVec F S64x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128 .f32) (main_arg21 : FVec F S256x128 .f32) (main_arg22 : FVec F S128 .f32) (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) (main_v33 : IVec S_ 1) : IVec S_ 1 :=
  let main_v34 : FVec F S21x64 .f32 := Host.absf main_arg9
  let main_cst_12 : FVec F S_ .f32 := constant S_ .f32 0x7F800000#32
  let main_v35 : FVec F S21x64 .f32 := broadcastInDim S21x64 ![] bcast_S_S21x64 main_cst_12
  let main_v36 : IVec S21x64 1 := cmpf .olt main_v34 main_v35
  let main_c_13 : IVec S_ 1 := constantI S_ 1 1#1
  let main_v37 : IVec S_ 1 := (fun x v => Host.reduce IntOp.andi x v reducesTo_S21x64_S_d0_1 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg6 : FVec F S128 .f32) (main_arg7 : FVec F S147x64 .f32) (main_arg8 : FVec F S64x128 .f32) (main_arg9 : FVec F S21x64 .f32) (main_arg10 : FVec F S64x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128 .f32) (main_arg21 : FVec F S256x128 .f32) (main_arg22 : FVec F S128 .f32) (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S147x64 .f32 := Host.absf main_arg7
  let main_cst_8 : FVec F S_ .f32 := constant S_ .f32 0x7F800000#32
  let main_v25 : FVec F S147x64 .f32 := broadcastInDim S147x64 ![] bcast_S_S147x64 main_cst_8
  let main_v26 : IVec S147x64 1 := cmpf .olt main_v24 main_v25
  let main_c_9 : IVec S_ 1 := constantI S_ 1 1#1
  let main_v27 : IVec S_ 1 := (fun x v => Host.reduce IntOp.andi x v reducesTo_S147x64_S_d0_1 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x128 .f32) (main_arg1 : FVec F S1000000x147 .f32) (main_arg2 : FVec F S1000000x21 .f32) (main_arg3 : IVec S2x1000000 32) (main_arg4 : IVec S50000 32) (main_arg5 : FVec F S128x128 .f32) (main_arg6 : FVec F S128 .f32) (main_arg7 : FVec F S147x64 .f32) (main_arg8 : FVec F S64x128 .f32) (main_arg9 : FVec F S21x64 .f32) (main_arg10 : FVec F S64x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128 .f32) (main_arg21 : FVec F S256x128 .f32) (main_arg22 : FVec F S128 .f32) (main_arg23 : FVec F S128 .f32) (main_arg24 : FVec F S128 .f32) (main_arg25 : FVec F S128 .f32) (main_arg26 : FVec F S3x128x128 .f32) (main_arg27 : FVec F S3x128 .f32) (main_arg28 : FVec F S128x128 .f32) (main_arg29 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1000000x147 .f32 := Host.absf main_arg1
  let main_cst_0 : FVec F S_ .f32 := constant S_ .f32 0x7F800000#32
  let main_v5 : FVec F S1000000x147 .f32 := broadcastInDim S1000000x147 ![] bcast_S_S1000000x147 main_cst_0
  let main_v6 : IVec S1000000x147 1 := cmpf .olt main_v4 main_v5
  let main_c_1 : IVec S_ 1 := constantI S_ 1 1#1
  let main_v7 : IVec S_ 1 := (fun x v => Host.reduce IntOp.andi x v reducesTo_S1000000x147_S_d0_1 h_S_) main_v6 main_c_1
  let main_v8 : IVec S_ 1 := andi main_v3 main_v7
  let main_v9 : FVec F S1000000x21 .f32 := Host.absf main_arg2
  let main_cst_2 : FVec F S_ .f32 := constant S_ .f32 0x7F800000#32
  let main_v10 : FVec F S1000000x21 .f32 := broadcastInDim S1000000x21 ![] bcast_S_S1000000x21 main_cst_2
  let main_v11 : IVec S1000000x21 1 := cmpf .olt main_v9 main_v10
  let main_c_3 : IVec S_ 1 := constantI S_ 1 1#1
  let main_v12 : IVec S_ 1 := (fun x v => Host.reduce IntOp.andi x v reducesTo_S1000000x21_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x128 : Shape := ⟨2, ![50000, 128]⟩
abbrev S1000000x147 : Shape := ⟨2, ![1000000, 147]⟩
abbrev S1000000x21 : Shape := ⟨2, ![1000000, 21]⟩
abbrev S2x1000000 : Shape := ⟨2, ![2, 1000000]⟩
abbrev S50000 : Shape := ⟨1, ![50000]⟩
abbrev S128x128 : Shape := ⟨2, ![128, 128]⟩
abbrev S128 : Shape := ⟨1, ![128]⟩
abbrev S147x64 : Shape := ⟨2, ![147, 64]⟩
abbrev S64x128 : Shape := ⟨2, ![64, 128]⟩
abbrev S21x64 : Shape := ⟨2, ![21, 64]⟩
abbrev S256x128 : Shape := ⟨2, ![256, 128]⟩
abbrev S3x128x128 : Shape := ⟨3, ![3, 128, 128]⟩
abbrev S3x128 : Shape := ⟨2, ![3, 128]⟩
abbrev S1x1000000 : Shape := ⟨2, ![1, 1000000]⟩
abbrev S1000000 : Shape := ⟨1, ![1000000]⟩
abbrev S1x128 : Shape := ⟨2, ![1, 128]⟩
abbrev S_ : Shape := ⟨0, ![]⟩
abbrev S1000000x128 : Shape := ⟨2, ![1000000, 128]⟩
abbrev S10000x147 : Shape := ⟨2, ![10000, 147]⟩
abbrev S10000x21 : Shape := ⟨2, ![10000, 21]⟩
abbrev S10000x128 : Shape := ⟨2, ![10000, 128]⟩
abbrev S10000x64 : Shape := ⟨2, ![10000, 64]⟩
abbrev S1000000x1 : Shape := ⟨2, ![1000000, 1]⟩
abbrev S50000x256 : Shape := ⟨2, ![50000, 256]⟩
abbrev S1x128x128 : Shape := ⟨3, ![1, 128, 128]⟩
abbrev S50000x1 : Shape := ⟨2, ![50000, 1]⟩
abbrev S512x1 : Shape := ⟨2, ![512, 1]⟩
abbrev S512x128 : Shape := ⟨2, ![512, 128]⟩

abbrev nBuf : Space → Nat
  | .hbm => 225
  | .vmem => 12
  | .smem => 0
  | _ => 0

abbrev hbmTy0_0 (i : Nat) : BufTy := match i % 128 with
  | 0 => ⟨S50000x128, .f32⟩
  | 1 => ⟨S1000000x147, .f32⟩
  | 2 => ⟨S1000000x21, .f32⟩
  | 3 => ⟨S2x1000000, .i32⟩
  | 4 => ⟨S50000, .i32⟩
  | 5 => ⟨S128x128, .f32⟩
  | 6 => ⟨S128, .f32⟩
  | 7 => ⟨S147x64, .f32⟩
  | 8 => ⟨S64x128, .f32⟩
  | 9 => ⟨S21x64, .f32⟩
  | 10 => ⟨S64x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128, .f32⟩
  | 21 => ⟨S256x128, .f32⟩
  | 22 => ⟨S128, .f32⟩
  | 23 => ⟨S128, .f32⟩
  | 24 => ⟨S128, .f32⟩
  | 25 => ⟨S128, .f32⟩
  | 26 => ⟨S3x128x128, .f32⟩
  | 27 => ⟨S3x128, .f32⟩
  | 28 => ⟨S128x128, .f32⟩
  | 29 => ⟨S128, .f32⟩
  | 30 => ⟨S1x1000000, .i32⟩
  | 31 => ⟨S1000000, .i32⟩
  | 32 => ⟨S1x1000000, .i32⟩
  | 33 => ⟨S1000000, .i32⟩
  | 34 => ⟨S50000x128, .f32⟩
  | 35 => ⟨S1x128, .f32⟩
  | 36 => ⟨S50000x128, .f32⟩
  | 37 => ⟨S50000x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S1000000x128, .f32⟩
  | 48 => ⟨S1000000x128, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x128, .f32⟩
  | 58 => ⟨S1000000x128, .f32⟩
  | 59 => ⟨S_, .f32⟩
  | 60 => ⟨S50000x128, .f32⟩
  | 61 => ⟨S1000000x1, .i32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S1000000x128, .f32⟩
  | 83 => ⟨S_, .f32⟩
  | 84 => ⟨S50000x128, .f32⟩
  | 85 => ⟨S1000000x1, .i32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S50000x256, .f32⟩
  | 107 => ⟨S50000x128, .f32⟩
  | 108 => ⟨S1x128, .f32⟩
  | 109 => ⟨S50000x128, .f32⟩
  | 110 => ⟨S50000x128, .f32⟩
  | 111 => ⟨S50000x128, .f32⟩
  | 112 => ⟨S1x128x128, .f32⟩
  | 113 => ⟨S128x128, .f32⟩
  | 114 => ⟨S50000x128, .f32⟩
  | 115 => ⟨S1x128, .f32⟩
  | 116 => ⟨S128, .f32⟩
  | 117 => ⟨S1x128, .f32⟩
  | 118 => ⟨S50000x128, .f32⟩
  | 119 => ⟨S50000x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128x128, .f32⟩
  | 3 => ⟨S128x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S50000x128, .f32⟩
  | 19 => ⟨S50000x128, .f32⟩
  | 20 => ⟨S1x128x128, .f32⟩
  | 21 => ⟨S128x128, .f32⟩
  | 22 => ⟨S50000x128, .f32⟩
  | 23 => ⟨S1x128, .f32⟩
  | 24 => ⟨S128, .f32⟩
  | 25 => ⟨S1x128, .f32⟩
  | 26 => ⟨S50000x128, .f32⟩
  | 27 => ⟨S50000x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S50000x128, .f32⟩
  | 38 => ⟨S_, .f32⟩
  | 39 => ⟨S50000x1, .f32⟩
  | 40 => ⟨S_, .f32⟩
  | 41 => ⟨S512x1, .f32⟩
  | 42 => ⟨S50000x1, .i32⟩
  | 43 => ⟨S512x1, .f32⟩
  | 44 => ⟨S_, .f32⟩
  | 45 => ⟨S512x1, .f32⟩
  | 46 => ⟨S512x1, .f32⟩
  | 47 => ⟨S_, .f32⟩
  | 48 => ⟨S512x128, .f32⟩
  | 49 => ⟨S50000x1, .i32⟩
  | 50 => ⟨S512x128, .f32⟩
  | 51 => ⟨S512x128, .f32⟩
  | 52 => ⟨S512x128, .f32⟩
  | 53 => ⟨S_, .i32⟩
  | 54 => ⟨S50000, .i32⟩
  | 55 => ⟨S50000, .i1⟩
  | 56 => ⟨S_, .i32⟩
  | 57 => ⟨S50000, .i32⟩
  | 58 => ⟨S50000, .i32⟩
  | 59 => ⟨S50000, .i32⟩
  | 60 => ⟨S50000x1, .i32⟩
  | 61 => ⟨S50000x128, .f32⟩
  | 62 => ⟨S1x128, .f32⟩
  | 63 => ⟨S50000x128, .f32⟩
  | 64 => ⟨S50000x128, .f32⟩
  | 65 => ⟨S50000x128, .f32⟩
  | 66 => ⟨S50000x128, .f32⟩
  | 67 => ⟨S_, .f32⟩
  | 68 => ⟨S512x128, .f32⟩
  | 69 => ⟨S50000x1, .i32⟩
  | 70 => ⟨S512x128, .f32⟩
  | 71 => ⟨S512x128, .f32⟩
  | 72 => ⟨S512x128, .f32⟩
  | 73 => ⟨S_, .f32⟩
  | 74 => ⟨S512x128, .f32⟩
  | 75 => ⟨S512x128, .f32⟩
  | 76 => ⟨S512x128, .f32⟩
  | 77 => ⟨S1x128, .f32⟩
  | 78 => ⟨S50000x128, .f32⟩
  | 79 => ⟨S50000x128, .f32⟩
  | 80 => ⟨S_, .i32⟩
  | 81 => ⟨S50000, .i32⟩
  | 82 => ⟨S50000, .i1⟩
  | 83 => ⟨S_, .i32⟩
  | 84 => ⟨S50000, .i32⟩
  | 85 => ⟨S50000, .i32⟩
  | 86 => ⟨S50000, .i32⟩
  | 87 => ⟨S50000x1, .i32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x147, .f32⟩
  | .local _ .vmem, ⟨1, _⟩ => ⟨S10000x147, .f32⟩
  | .local _ .vmem, ⟨2, _⟩ => ⟨S10000x21, .f32⟩
  | .local _ .vmem, ⟨3, _⟩ => ⟨S10000x21, .f32⟩
  | .local _ .vmem, ⟨4, _⟩ => ⟨S147x64, .f32⟩
  | .local _ .vmem, ⟨5, _⟩ => ⟨S64x128, .f32⟩
  | .local _ .vmem, ⟨6, _⟩ => ⟨S21x64, .f32⟩
  | .local _ .vmem, ⟨7, _⟩ => ⟨S64x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_v10 : Ref sig .tc := ⟨.hbm, 41, rfl⟩
abbrev main_v11 : Ref sig .tc := ⟨.hbm, 42, rfl⟩
abbrev main_cst_0 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15_0 : Ref sig .tc := ⟨.hbm, 47, rfl⟩
abbrev main_v15_1 : Ref sig .tc := ⟨.hbm, 48, rfl⟩
abbrev main_c : Ref sig .tc := ⟨.hbm, 49, rfl⟩
abbrev main_v16 : Ref sig .tc := ⟨.hbm, 50, rfl⟩
abbrev main_v17 : Ref sig .tc := ⟨.hbm, 51, rfl⟩
abbrev main_c_1 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_2 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_3 : Ref sig .tc := ⟨.hbm, 75, rfl⟩
abbrev main_v39 : Ref sig .tc := ⟨.hbm, 76, rfl⟩
abbrev main_v40 : Ref sig .tc := ⟨.hbm, 77, rfl⟩
abbrev main_cst_4 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_5 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_6 : Ref sig .tc := ⟨.hbm, 99, rfl⟩
abbrev main_v60 : Ref sig .tc := ⟨.hbm, 100, rfl⟩
abbrev main_v61 : Ref sig .tc := ⟨.hbm, 101, rfl⟩
abbrev main_cst_7 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_8 : Ref sig .tc := ⟨.hbm, 122, rfl⟩
abbrev main_v81 : Ref sig .tc := ⟨.hbm, 123, rfl⟩
abbrev main_v82 : Ref sig .tc := ⟨.hbm, 124, rfl⟩
abbrev main_cst_9 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_10 : Ref sig .tc := ⟨.hbm, 140, rfl⟩
abbrev main_v97 : Ref sig .tc := ⟨.hbm, 141, rfl⟩
abbrev main_v98 : Ref sig .tc := ⟨.hbm, 142, rfl⟩
abbrev main_cst_11 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_12 : Ref sig .tc := ⟨.hbm, 158, rfl⟩
abbrev main_v113 : Ref sig .tc := ⟨.hbm, 159, rfl⟩
abbrev main_v114 : Ref sig .tc := ⟨.hbm, 160, rfl⟩
abbrev main_cst_13 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_14 : Ref sig .tc := ⟨.hbm, 166, rfl⟩
abbrev main_v119 : Ref sig .tc := ⟨.hbm, 167, rfl⟩
abbrev main_cst_15 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_16 : Ref sig .tc := ⟨.hbm, 172, rfl⟩
abbrev main_v123 : Ref sig .tc := ⟨.hbm, 173, rfl⟩
abbrev main_v124 : Ref sig .tc := ⟨.hbm, 174, rfl⟩
abbrev main_cst_17 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_c_18 : Ref sig .tc := ⟨.hbm, 181, rfl⟩
abbrev main_v130 : Ref sig .tc := ⟨.hbm, 182, rfl⟩
abbrev main_v131 : Ref sig .tc := ⟨.hbm, 183, rfl⟩
abbrev main_c_19 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_20 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_21 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_c_22 : Ref sig .tc := ⟨.hbm, 208, rfl⟩
abbrev main_v153 : Ref sig .tc := ⟨.hbm, 209, rfl⟩
abbrev main_v154 : Ref sig .tc := ⟨.hbm, 210, rfl⟩
abbrev main_c_23 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x21 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S147x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S21x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  inb_S10000x147_S10000x147_0_0 : ∀ a, (![0, 0] : Fin 2 → Nat) a + S10000x147.size a ≤ S10000x147.size a
  h_S10000x147 : 0 < S10000x147.numel
  bitsLt_bf16_f32 : FTy.bits .bf16 < FTy.bits .f32
  inb_S10000x21_S10000x21_0_0 : ∀ a, (![0, 0] : Fin 2 → Nat) a + S10000x21.size a ≤ S10000x21.size a
  h_S10000x21 : 0 < S10000x21.numel
  inb_S147x64_S147x64_0_0 : ∀ a, (![0, 0] : Fin 2 → Nat) a + S147x64.size a ≤ S147x64.size a
  h_S147x64 : 0 < S147x64.numel
  inb_S64x128_S64x128_0_0 : ∀ a, (![0, 0] : Fin 2 → Nat) a + S64x128.size a ≤ S64x128.size a
  h_S64x128 : 0 < S64x128.numel
  inb_S21x64_S21x64_0_0 : ∀ a, (![0, 0] : Fin 2 → Nat) a + S21x64.size a ≤ S21x64.size a
  h_S21x64 : 0 < S21x64.numel
  inb_S10000x128_S10000x128_0_0 : ∀ a, (![0, 0] : Fin 2 → Nat) a + S10000x128.size a ≤ S10000x128.size a
  h_S10000x128 : 0 < S10000x128.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S50000x128_S50000x128_S50000x256_d1 : Shape.Concatenates [S50000x128, S50000x128] S50000x256 1
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512x1_S512x128_0_1 : S512x1.BroadcastsInDim S512x128 (![0, 1] : Fin 2 → Fin S512x128.rank)
  bcast_S_S50000 : S_.BroadcastsInDim S50000 (![] : Fin 0 → Fin S50000.rank)
  dot_S50000x128_S128x128_S50000x128_1_0_0_1_n_n_wf : DotDims.WF S50000x128 S128x128 S50000x128 [1] [0] [0] [1] [] []
  dot_S10000x147_S147x64_S10000x64_1_0_0_1_n_n_wf : DotDims.WF S10000x147 S147x64 S10000x64 [1] [0] [0] [1] [] []
  dot_S10000x64_S64x128_S10000x128_1_0_0_1_n_n_wf : DotDims.WF S10000x64 S64x128 S10000x128 [1] [0] [0] [1] [] []
  dot_S10000x21_S21x64_S10000x64_1_0_0_1_n_n_wf : DotDims.WF S10000x21 S21x64 S10000x64 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  dot_S50000x256_S256x128_S50000x128_1_0_0_1_n_n_wf : DotDims.WF S50000x256 S256x128 S50000x128 [1] [0] [0] [1] [] []
  scatter_S512x1_S50000x1_S50000x1_1_0_0_1_wf : ScatterDims.WF S512x1 S50000x1 S50000x1 [1] [0] [0] 1
  scatter_S512x128_S50000x1_S50000x128_1_0_0_1_wf : ScatterDims.WF S512x128 S50000x1 S50000x128 [1] [0] [0] 1
  gather_S512x128_S50000x1_S50000x128_1_0_n_n_0_1_1128_wf : GatherDims.WF S512x128 S50000x1 S50000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x147.size a ≤ S1000000x147.size a
  hwx0_0 : ∀ i : grid0.Coords, EltTy.bits .f32 = 32 ∨ (Rect.block (s := S1000000x147) S10000x147.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x21.size a ≤ S1000000x21.size a
  hwx0_1 : ∀ i : grid0.Coords, EltTy.bits .f32 = 32 ∨ (Rect.block (s := S1000000x21) S10000x21.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S147x64.size a ≤ S147x64.size a
  hwx0_2 : ∀ i : grid0.Coords, EltTy.bits .f32 = 32 ∨ (Rect.block (s := S147x64) S147x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S21x64.size a ≤ S21x64.size a
  hwx0_4 : ∀ i : grid0.Coords, EltTy.bits .f32 = 32 ∨ (Rect.block (s := S21x64) S21x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S1000000x128.size a
  hwx0_6 : ∀ i : grid0.Coords, EltTy.bits .f32 = 32 ∨ (Rect.block (s := S1000000x128) S10000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S1000000x128.size a
  hwx0_7 : ∀ i : grid0.Coords, EltTy.bits .f32 = 32 ∨ (Rect.block (s := S1000000x128) S10000x128.size (cc0_transform_7 i) (hinb0_7 i)).WholeWords (EltTy.packing .f32)

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S10000x147_S147x64_S10000x64_1_0_0_1_n_n : DotDims S10000x147 S147x64 S10000x64 where
  lhsContracting := [1]
  rhsContracting := [0]
  lhsNonContracting := [0]
  rhsNonContracting := [1]
  lhsBatch := []
  rhsBatch := []
  wf := dot_S10000x147_S147x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x21_S21x64_S10000x64_1_0_0_1_n_n : DotDims S10000x21 S21x64 S10000x64 where
  lhsContracting := [1]
  rhsContracting := [0]
  lhsNonContracting := [0]
  rhsNonContracting := [1]
  lhsBatch := []
  rhsBatch := []
  wf := dot_S10000x21_S21x64_S10000x64_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def gather_S512x128_S50000x1_S50000x128_1_0_n_n_0_1_1128 : GatherDims S512x128 S50000x1 S50000x128 where
  offsetDims := [1]
  collapsedSliceDims := [0]
  operandBatchingDims := []
  startIndicesBatchingDims := []
  startIndexMap := [0]
  indexVectorDim := 1
  sliceSizes := ![1, 128]
  wf := gather_S512x128_S50000x1_S50000x128_1_0_n_n_0_1_1128_wf

abbrev win0_0 : Pipeline.Window sig grid0 :=
  Pipeline.Window.ofSpec (Memref.whole main_arg1) S10000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x21.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S147x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S21x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S10000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S10000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S1000000x147 : Shape := ⟨2, ![1000000, 147]⟩
abbrev S1000000x21 : Shape := ⟨2, ![1000000, 21]⟩
abbrev S2x1000000 : Shape := ⟨2, ![2, 1000000]⟩
abbrev S50000 : Shape := ⟨1, ![50000]⟩
abbrev S128x128 : Shape := ⟨2, ![128, 128]⟩
abbrev S128 : Shape := ⟨1, ![128]⟩
abbrev S147x64 : Shape := ⟨2, ![147, 64]⟩
abbrev S64x128 : Shape := ⟨2, ![64, 128]⟩
abbrev S21x64 : Shape := ⟨2, ![21, 64]⟩
abbrev S256x128 : Shape := ⟨2, ![256, 128]⟩
abbrev S3x128x128 : Shape := ⟨3, ![3, 128, 128]⟩
abbrev S3x128 : Shape := ⟨2, ![3, 128]⟩
abbrev S1x1000000 : Shape := ⟨2, ![1, 1000000]⟩
abbrev S1000000 : Shape := ⟨1, ![1000000]⟩
abbrev S1x128 : Shape := ⟨2, ![1, 128]⟩
abbrev S_ : Shape := ⟨0, ![]⟩
abbrev S1000000x64 : Shape := ⟨2, ![1000000, 64]⟩
abbrev S1000000x128 : Shape := ⟨2, ![1000000, 128]⟩
abbrev S1000000x1 : Shape := ⟨2, ![1000000, 1]⟩
abbrev S50000x256 : Shape := ⟨2, ![50000, 256]⟩
abbrev S1x128x128 : Shape := ⟨3, ![1, 128, 128]⟩
abbrev S50000x1 : Shape := ⟨2, ![50000, 1]⟩
abbrev S512x1 : Shape := ⟨2, ![512, 1]⟩
abbrev S512x128 : Shape := ⟨2, ![512, 128]⟩

abbrev nBuf : Space → Nat
  | .hbm => 236
  | .vmem => 0
  | .smem => 0
  | _ => 0

abbrev hbmTy0_0 (i : Nat) : BufTy := match i % 128 with
  | 0 => ⟨S50000x128, .f32⟩
  | 1 => ⟨S1000000x147, .f32⟩
  | 2 => ⟨S1000000x21, .f32⟩
  | 3 => ⟨S2x1000000, .i32⟩
  | 4 => ⟨S50000, .i32⟩
  | 5 => ⟨S128x128, .f32⟩
  | 6 => ⟨S128, .f32⟩
  | 7 => ⟨S147x64, .f32⟩
  | 8 => ⟨S64x128, .f32⟩
  | 9 => ⟨S21x64, .f32⟩
  | 10 => ⟨S64x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128, .f32⟩
  | 21 => ⟨S256x128, .f32⟩
  | 22 => ⟨S128, .f32⟩
  | 23 => ⟨S128, .f32⟩
  | 24 => ⟨S128, .f32⟩
  | 25 => ⟨S128, .f32⟩
  | 26 => ⟨S3x128x128, .f32⟩
  | 27 => ⟨S3x128, .f32⟩
  | 28 => ⟨S128x128, .f32⟩
  | 29 => ⟨S128, .f32⟩
  | 30 => ⟨S1x1000000, .i32⟩
  | 31 => ⟨S1000000, .i32⟩
  | 32 => ⟨S1x1000000, .i32⟩
  | 33 => ⟨S1000000, .i32⟩
  | 34 => ⟨S50000x128, .f32⟩
  | 35 => ⟨S1x128, .f32⟩
  | 36 => ⟨S50000x128, .f32⟩
  | 37 => ⟨S50000x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S1000000x64, .f32⟩
  | 48 => ⟨S1000000x128, .f32⟩
  | 49 => ⟨S1000000x64, .f32⟩
  | 50 => ⟨S1000000x128, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x128, .f32⟩
  | 60 => ⟨S1000000x128, .f32⟩
  | 61 => ⟨S_, .f32⟩
  | 62 => ⟨S50000x128, .f32⟩
  | 63 => ⟨S1000000x1, .i32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x128, .f32⟩
  | 93 => ⟨S1000000x128, .f32⟩
  | 94 => ⟨S_, .f32⟩
  | 95 => ⟨S50000x128, .f32⟩
  | 96 => ⟨S1000000x1, .i32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S50000x256, .f32⟩
  | 118 => ⟨S50000x128, .f32⟩
  | 119 => ⟨S1x128, .f32⟩
  | 120 => ⟨S50000x128, .f32⟩
  | 121 => ⟨S50000x128, .f32⟩
  | 122 => ⟨S50000x128, .f32⟩
  | 123 => ⟨S1x128x128, .f32⟩
  | 124 => ⟨S128x128, .f32⟩
  | 125 => ⟨S50000x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S50000x128, .f32⟩
  | 12 => ⟨S50000x128, .f32⟩
  | 13 => ⟨S1x128x128, .f32⟩
  | 14 => ⟨S128x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S50000x128, .f32⟩
  | 30 => ⟨S50000x128, .f32⟩
  | 31 => ⟨S1x128x128, .f32⟩
  | 32 => ⟨S128x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S50000x128, .f32⟩
  | 48 => ⟨S50000x128, .f32⟩
  | 49 => ⟨S_, .f32⟩
  | 50 => ⟨S50000x1, .f32⟩
  | 51 => ⟨S_, .f32⟩
  | 52 => ⟨S512x1, .f32⟩
  | 53 => ⟨S50000x1, .i32⟩
  | 54 => ⟨S512x1, .f32⟩
  | 55 => ⟨S_, .f32⟩
  | 56 => ⟨S512x1, .f32⟩
  | 57 => ⟨S512x1, .f32⟩
  | 58 => ⟨S_, .f32⟩
  | 59 => ⟨S512x128, .f32⟩
  | 60 => ⟨S50000x1, .i32⟩
  | 61 => ⟨S512x128, .f32⟩
  | 62 => ⟨S512x128, .f32⟩
  | 63 => ⟨S512x128, .f32⟩
  | 64 => ⟨S_, .i32⟩
  | 65 => ⟨S50000, .i32⟩
  | 66 => ⟨S50000, .i1⟩
  | 67 => ⟨S_, .i32⟩
  | 68 => ⟨S50000, .i32⟩
  | 69 => ⟨S50000, .i32⟩
  | 70 => ⟨S50000, .i32⟩
  | 71 => ⟨S50000x1, .i32⟩
  | 72 => ⟨S50000x128, .f32⟩
  | 73 => ⟨S1x128, .f32⟩
  | 74 => ⟨S50000x128, .f32⟩
  | 75 => ⟨S50000x128, .f32⟩
  | 76 => ⟨S50000x128, .f32⟩
  | 77 => ⟨S50000x128, .f32⟩
  | 78 => ⟨S_, .f32⟩
  | 79 => ⟨S512x128, .f32⟩
  | 80 => ⟨S50000x1, .i32⟩
  | 81 => ⟨S512x128, .f32⟩
  | 82 => ⟨S512x128, .f32⟩
  | 83 => ⟨S512x128, .f32⟩
  | 84 => ⟨S_, .f32⟩
  | 85 => ⟨S512x128, .f32⟩
  | 86 => ⟨S512x128, .f32⟩
  | 87 => ⟨S512x128, .f32⟩
  | 88 => ⟨S1x128, .f32⟩
  | 89 => ⟨S50000x128, .f32⟩
  | 90 => ⟨S50000x128, .f32⟩
  | 91 => ⟨S_, .i32⟩
  | 92 => ⟨S50000, .i32⟩
  | 93 => ⟨S50000, .i1⟩
  | 94 => ⟨S_, .i32⟩
  | 95 => ⟨S50000, .i32⟩
  | 96 => ⟨S50000, .i32⟩
  | 97 => ⟨S50000, .i32⟩
  | 98 => ⟨S50000x1, .i32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_v10 : Ref sig .tc := ⟨.hbm, 41, rfl⟩
abbrev main_v11 : Ref sig .tc := ⟨.hbm, 42, rfl⟩
abbrev main_cst_0 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c : Ref sig .tc := ⟨.hbm, 51, rfl⟩
abbrev main_v19 : Ref sig .tc := ⟨.hbm, 52, rfl⟩
abbrev main_v20 : Ref sig .tc := ⟨.hbm, 53, rfl⟩
abbrev main_c_1 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_2 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_3 : Ref sig .tc := ⟨.hbm, 77, rfl⟩
abbrev main_v42 : Ref sig .tc := ⟨.hbm, 78, rfl⟩
abbrev main_v43 : Ref sig .tc := ⟨.hbm, 79, rfl⟩
abbrev main_cst_4 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_5 : Ref sig .tc := ⟨.hbm, 84, rfl⟩
abbrev main_v47 : Ref sig .tc := ⟨.hbm, 85, rfl⟩
abbrev main_v48 : Ref sig .tc := ⟨.hbm, 86, rfl⟩
abbrev main_c_6 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_7 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_8 : Ref sig .tc := ⟨.hbm, 110, rfl⟩
abbrev main_v70 : Ref sig .tc := ⟨.hbm, 111, rfl⟩
abbrev main_v71 : Ref sig .tc := ⟨.hbm, 112, rfl⟩
abbrev main_cst_9 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_10 : Ref sig .tc := ⟨.hbm, 133, rfl⟩
abbrev main_v91 : Ref sig .tc := ⟨.hbm, 134, rfl⟩
abbrev main_v92 : Ref sig .tc := ⟨.hbm, 135, rfl⟩
abbrev main_cst_11 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_12 : Ref sig .tc := ⟨.hbm, 151, rfl⟩
abbrev main_v107 : Ref sig .tc := ⟨.hbm, 152, rfl⟩
abbrev main_v108 : Ref sig .tc := ⟨.hbm, 153, rfl⟩
abbrev main_cst_13 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_14 : Ref sig .tc := ⟨.hbm, 169, rfl⟩
abbrev main_v123 : Ref sig .tc := ⟨.hbm, 170, rfl⟩
abbrev main_v124 : Ref sig .tc := ⟨.hbm, 171, rfl⟩
abbrev main_cst_15 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_16 : Ref sig .tc := ⟨.hbm, 177, rfl⟩
abbrev main_v129 : Ref sig .tc := ⟨.hbm, 178, rfl⟩
abbrev main_cst_17 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_18 : Ref sig .tc := ⟨.hbm, 183, rfl⟩
abbrev main_v133 : Ref sig .tc := ⟨.hbm, 184, rfl⟩
abbrev main_v134 : Ref sig .tc := ⟨.hbm, 185, rfl⟩
abbrev main_cst_19 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_c_20 : Ref sig .tc := ⟨.hbm, 192, rfl⟩
abbrev main_v140 : Ref sig .tc := ⟨.hbm, 193, rfl⟩
abbrev main_v141 : Ref sig .tc := ⟨.hbm, 194, rfl⟩
abbrev main_c_21 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_cst_22 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_cst_23 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_c_24 : Ref sig .tc := ⟨.hbm, 219, rfl⟩
abbrev main_v163 : Ref sig .tc := ⟨.hbm, 220, rfl⟩
abbrev main_v164 : Ref sig .tc := ⟨.hbm, 221, rfl⟩
abbrev main_c_25 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S50000x128_S50000x128_S50000x256_d1 : Shape.Concatenates [S50000x128, S50000x128] S50000x256 1
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512x1_S512x128_0_1 : S512x1.BroadcastsInDim S512x128 (![0, 1] : Fin 2 → Fin S512x128.rank)
  bcast_S_S50000 : S_.BroadcastsInDim S50000 (![] : Fin 0 → Fin S50000.rank)
  dot_S50000x128_S128x128_S50000x128_1_0_0_1_n_n_wf : DotDims.WF S50000x128 S128x128 S50000x128 [1] [0] [0] [1] [] []
  dot_S1000000x147_S147x64_S1000000x64_1_0_0_1_n_n_wf : DotDims.WF S1000000x147 S147x64 S1000000x64 [1] [0] [0] [1] [] []
  dot_S1000000x64_S64x128_S1000000x128_1_0_0_1_n_n_wf : DotDims.WF S1000000x64 S64x128 S1000000x128 [1] [0] [0] [1] [] []
  dot_S1000000x21_S21x64_S1000000x64_1_0_0_1_n_n_wf : DotDims.WF S1000000x21 S21x64 S1000000x64 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  dot_S50000x256_S256x128_S50000x128_1_0_0_1_n_n_wf : DotDims.WF S50000x256 S256x128 S50000x128 [1] [0] [0] [1] [] []
  scatter_S512x1_S50000x1_S50000x1_1_0_0_1_wf : ScatterDims.WF S512x1 S50000x1 S50000x1 [1] [0] [0] 1
  scatter_S512x128_S50000x1_S50000x128_1_0_0_1_wf : ScatterDims.WF S512x128 S50000x1 S50000x128 [1] [0] [0] 1
  gather_S512x128_S50000x1_S50000x128_1_0_n_n_0_1_1128_wf : GatherDims.WF S512x128 S50000x1 S50000x128 [1] [0] [] [0] [] 1 ![1, 128]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S1000000x147_S147x64_S1000000x64_1_0_0_1_n_n : DotDims S1000000x147 S147x64 S1000000x64 where
  lhsContracting := [1]
  rhsContracting := [0]
  lhsNonContracting := [0]
  rhsNonContracting := [1]
  lhsBatch := []
  rhsBatch := []
  wf := dot_S1000000x147_S147x64_S1000000x64_1_0_0_1_n_n_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def dot_S1000000x21_S21x64_S1000000x64_1_0_0_1_n_n : DotDims S1000000x21 S21x64 S1000000x64 where
  lhsContracting := [1]
  rhsContracting := [0]
  lhsNonContracting := [0]
  rhsNonContracting := [1]
  lhsBatch := []
  rhsBatch := []
  wf := dot_S1000000x21_S21x64_S1000000x64_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def gather_S512x128_S50000x1_S50000x128_1_0_n_n_0_1_1128 : GatherDims S512x128 S50000x1 S50000x128 where
  offsetDims := [1]
  collapsedSliceDims := [0]
  operandBatchingDims := []
  startIndicesBatchingDims := []
  startIndexMap := [0]
  indexVectorDim := 1
  sliceSizes := ![1, 128]
  wf := gather_S512x128_S50000x1_S50000x128_1_0_n_n_0_1_1128_wf

class Facts : Prop extends Facts₀ where

variable [Facts]
-- ==== Proof.EdgeHostBits.lean ====
/-
  The host program around the edge-MLP region.

  @main is three stretches: seventeen host lines that slice the two rows of the edge list and form
  xh = v * (1 / (1 + exp (-v))) with v = x * lin_w + lin_b; the one region, which writes the two
  edge-feature products f1 and f2 block by block; and 176 later host lines (the gather of xh along the
  sources, the two scatter-adds onto the targets, the dense node chain, the per-graph normalisation and
  the last linear layer).  The later lines are taken in the four consecutive pieces the printed program
  cuts them into.

  Two facts about the later lines carry everything below: each of them writes exactly one buffer, its own
  result, and that buffer is none of the thirty argument arrays and none of the eight arrays the region's
  windows stage.  So every argument array still holds its launch contents when @main returns, and the
  later lines leave the region's arrays alone.
-/
import proofs.«177343_j24163486008144_1_alg».proof.Proof.Gen.Kernel.Launch
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The stretches -/

/-- The host lines after the region, in the four pieces the program is printed in. -/
abbrev laterLines : List (List (HloOp τ sig (Elt F))) :=
  [main_part0_ops1, main_part1_ops0, main_part2_ops0, main_part3_ops0]

/-- Core `c`'s buffer contents when the region is entered: the launch contents after the seventeen
    earlier host lines. -/
abbrev V0 (c : Dev nD) : Valuation τ sig (Elt F) :=
  StableHlo.after (List.flatten [main_part0_ops0]) (fun b => m (c, b))
/-- The same, read at a TensorCore reference. -/
abbrev V (c : Dev nD) (b : Ref sig .tc) : Buf (Elt F) ((c : Thread nD τ).loc b) := V0 m c (Proc.devRef .tc b)

/-! ## No line allocates -/

theorem earlier_fresh : (main_part0_ops0 : List (HloOp τ sig (Elt F))).Forall fun op => op.fresh = ∅ := by
  simp only [List.Forall]; repeat' constructor
theorem later0_fresh : (main_part0_ops1 : List (HloOp τ sig (Elt F))).Forall fun op => op.fresh = ∅ := by
  simp only [List.Forall]; repeat' constructor
theorem later1_fresh : (main_part1_ops0 : List (HloOp τ sig (Elt F))).Forall fun op => op.fresh = ∅ := by
  simp only [List.Forall]; repeat' constructor
theorem later2_fresh : (main_part2_ops0 : List (HloOp τ sig (Elt F))).Forall fun op => op.fresh = ∅ := by
  simp only [List.Forall]; repeat' constructor
theorem later3_fresh : (main_part3_ops0 : List (HloOp τ sig (Elt F))).Forall fun op => op.fresh = ∅ := by
  simp only [List.Forall]; repeat' constructor

/-! ## What each stretch writes -/

/-- The result buffers of the seventeen earlier lines. -/
abbrev earlierResults : List (Ref sig .tc) := [main_v0, main_v1, main_v2, main_v3, main_v4, main_v5, main_v6, main_v7, main_v8, main_v9, main_cst, main_v10, main_v11, main_cst_0, main_v12, main_v13, main_v14]
/-- The result buffers of the 176 later lines. -/
abbrev laterResults : List (Ref sig .tc) := [main_c, main_v16, main_v17, main_c_1, main_v18, main_v19, main_v20, main_v21, main_v22, main_v23, main_cst_2, main_v24, main_v25, main_v26, main_v27, main_v28, main_v29, main_v30, main_v31, main_v32, main_v33, main_v34, main_v35, main_v36, main_v37, main_v38, main_cst_3, main_v39, main_v40, main_cst_4, main_v41, main_v42, main_v43, main_v44, main_cst_5, main_v45, main_v46, main_v47, main_v48, main_v49, main_v50, main_v51, main_v52, main_v53, main_v54, main_v55, main_v56, main_v57, main_v58, main_v59, main_cst_6, main_v60, main_v61, main_cst_7, main_v62, main_v63, main_v64, main_v65, main_v66, main_v67, main_v68, main_v69, main_v70, main_v71, main_v72, main_v73, main_v74, main_v75, main_v76, main_v77, main_v78, main_v79, main_v80, main_cst_8, main_v81, main_v82, main_cst_9, main_v83, main_v84, main_v85, main_v86, main_v87, main_v88, main_v89, main_v90, main_v91, main_v92, main_v93, main_v94, main_v95, main_v96, main_cst_10, main_v97, main_v98, main_cst_11, main_v99, main_v100, main_v101, main_v102, main_v103, main_v104, main_v105, main_v106, main_v107, main_v108, main_v109, main_v110, main_v111, main_v112, main_cst_12, main_v113, main_v114, main_cst_13, main_v115, main_v116, main_v117, main_v118, main_cst_14, main_v119, main_cst_15, main_v120, main_v121, main_v122, main_cst_16, main_v123, main_v124, main_cst_17, main_v125, main_v126, main_v127, main_v128, main_v129, main_c_18, main_v130, main_v131, main_c_19, main_v132, main_v133, main_v134, main_v135, main_v136, main_v137, main_v138, main_v139, main_v140, main_v141, main_cst_20, main_v142, main_v143, main_v144, main_v145, main_v146, main_cst_21, main_v147, main_v148, main_v149, main_v150, main_v151, main_v152, main_c_22, main_v153, main_v154, main_c_23, main_v155, main_v156, main_v157, main_v158, main_v159, main_v160, main_v161, main_v162, main_v163, main_v164, main_v165, main_v166, main_v167]

theorem earlier_writes : (main_part0_ops0 : List (HloOp τ sig (Elt F))).Forall fun op =>
    op.writes ⊆ (earlierResults.map (Proc.devRef (τ := τ) .tc)).toFinset := by
  simp only [List.Forall]; repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
theorem later0_writes : (main_part0_ops1 : List (HloOp τ sig (Elt F))).Forall fun op =>
    op.writes ⊆ (laterResults.map (Proc.devRef (τ := τ) .tc)).toFinset := by
  simp only [List.Forall]; repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
theorem later1_writes : (main_part1_ops0 : List (HloOp τ sig (Elt F))).Forall fun op =>
    op.writes ⊆ (laterResults.map (Proc.devRef (τ := τ) .tc)).toFinset := by
  simp only [List.Forall]; repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
theorem later2_writes : (main_part2_ops0 : List (HloOp τ sig (Elt F))).Forall fun op =>
    op.writes ⊆ (laterResults.map (Proc.devRef (τ := τ) .tc)).toFinset := by
  simp only [List.Forall]; repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
theorem later3_writes : (main_part3_ops0 : List (HloOp τ sig (Elt F))).Forall fun op =>
    op.writes ⊆ (laterResults.map (Proc.devRef (τ := τ) .tc)).toFinset := by
  simp only [List.Forall]; repeat' constructor
  all_goals (simp only [StableHlo.nullary_writes, StableHlo.unary_writes, StableHlo.binary_writes, StableHlo.ternary_writes, StableHlo.reshape_writes, Finset.singleton_subset_iff, List.mem_toFinset]; exact List.mem_map_of_mem (by decide))

/-- Every later line writes only among the later results. -/
theorem later_writes : ∀ ops ∈ (laterLines : List (List (HloOp τ sig (Elt F)))), ∀ op ∈ ops,
    op.writes ⊆ (laterResults.map (Proc.devRef (τ := τ) .tc)).toFinset := by
  intro ops hops op hop
  simp only [List.mem_cons, List.mem_nil_iff, or_false] at hops
  rcases hops with rfl | rfl | rfl | rfl
  · exact (List.forall_iff_forall_mem.mp later0_writes) op hop
  · exact (List.forall_iff_forall_mem.mp later1_writes) op hop
  · exact (List.forall_iff_forall_mem.mp later2_writes) op hop
  · exact (List.forall_iff_forall_mem.mp later3_writes) op hop

/-- The same over the four pieces run as one line. -/
theorem later_flat_writes : (List.flatten (laterLines : List (List (HloOp τ sig (Elt F))))).Forall fun op =>
    op.writes ⊆ (laterResults.map (Proc.devRef (τ := τ) .tc)).toFinset := by
  rw [List.forall_iff_forall_mem]
  intro op hop
  obtain ⟨ops, hops, hmem⟩ := List.mem_flatten.mp hop
  exact later_writes ops hops op hmem

/-- A buffer that is no later result is not written by a later line. -/
theorem later_keeps_ref (r : Ref sig .tc) (hr : r ∉ laterResults) :
    ∀ ops ∈ (laterLines : List (List (HloOp τ sig (Elt F)))), ∀ op ∈ ops, Proc.devRef (τ := τ) .tc r ∉ op.writes := by
  intro ops hops op hop hb
  obtain ⟨y, hy, he⟩ := List.mem_map.mp (List.mem_toFinset.mp (later_writes ops hops op hop hb))
  exact hr (Proc.devRef_injective _ he ▸ hy)

/-! ## @main around the region -/

/-- @main is the earlier lines, the region, the later lines: it reduces to the region continued by the
    later lines, the region entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((laterLines : List (List (HloOp τ sig (Elt F)))).map StableHlo.seq)) :=
  Pipeline.hmain_around cfgs 0 defs₀ 𝒱₀ m main [main_part0_ops0] laterLines (by simp only [List.Forall]; exact main_part0_ops0_sub)
    (by simp only [List.Forall]; exact earlier_fresh) main_chain_windows

/-- The later lines touch unscoped TensorCore buffers only: the region's arrays and the buffers that bypass it. -/
theorem later_sub : ∀ ops ∈ (laterLines : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp main_part0_ops1_sub) op hop)
  · exact Pipeline.sub_ucRefs op ((List.forall_iff_forall_mem.mp main_part1_ops0_sub) op hop)
  · exact Pipeline.sub_ucRefs op ((List.forall_iff_forall_mem.mp main_part2_ops0_sub) op hop)
  · exact Pipeline.sub_ucRefs op ((List.forall_iff_forall_mem.mp main_part3_ops0_sub) op hop)

/-- They allocate nothing. -/
theorem later_fresh : ∀ ops ∈ (laterLines : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp later0_fresh) op hop
  · exact (List.forall_iff_forall_mem.mp later1_fresh) op hop
  · exact (List.forall_iff_forall_mem.mp later2_fresh) op hop
  · exact (List.forall_iff_forall_mem.mp later3_fresh) op hop

/-- And they write none of the eight arrays the region's windows stage. -/
theorem later_keeps : ∀ ops ∈ (laterLines : List (List (HloOp τ sig (Elt F)))), ∀ op ∈ ops,
    ∀ w, Proc.devRef .tc (Pipeline.arrRef spec0 w) ∉ op.writes := by
  intro ops hops op hop w
  exact later_keeps_ref (Pipeline.arrRef spec0 w) (by revert w; decide) ops hops op hop

end Cert.Kernel.Hand

end
-- ==== Proof.EdgeRegionBits.lean ====
/-
  The edge-MLP region: what its body leaves, and the run of @main around it.

  At each of the hundred grid points the body is handed a block of ten thousand rows of each feature
  array and the four weight matrices whole.  It stores, over the whole of each output block,
  (A * W1) * W2 for the first feature array and weights and the same for the second: two matrix products
  in a row, each onto a zero accumulator.  It also loads each output block once before storing it and
  uses nothing of what it loaded, so the outputs may hold anything when the body starts.

  The proof data say: every input window's buffer holds its array's block at every point, fetched there
  or not (the weight matrices are fetched once; their block index never moves), and every output
  window's buffer holds, after the body, the one store's value over the whole block.  The body's triple
  is run symbolically; the run of @main then follows from the library's theorem for a program that is
  host lines, one region, host lines.  Every argument array ends as launched: a staged one because the
  region only reads it, the others because no line writes them.
-/
import proofs.«177343_j24163486008144_1_alg».proof.Proof.EdgeHostBits
import proofs.«177343_j24163486008144_1_alg».proof.Proof.Gen.Kernel.Skeleton
import proofs.«177343_j24163486008144_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays before and after the host lines -/

/-- A buffer that is no result of an earlier line is found by the region as launched. -/
theorem V_keep (c : Dev nD) (r : Ref sig .tc) (hr : r ∉ earlierResults) : V m c r = m ((c : Thread nD τ).loc r) := by
  unfold V V0
  simp only [List.flatten_cons, List.flatten_nil, List.append_nil]
  exact StableHlo.after_of_writes_sub _ _ earlier_writes hr

/-- A buffer that is no result of any host line and no array of the region ends as launched. -/
theorem W_keep (dats : (p : Fin _) → (c : Dev nD) → Dat τ (Elt F) Unit ℕ (UR sig nD τ) ℕ (cfgs p) c) (c : Dev nD)
    (r : Ref sig .tc) (h₁ : r ∉ laterResults) (h₀ : r ∉ earlierResults) (ha : ∀ w, Pipeline.arrRef spec0 w ≠ r) :
    Pipeline.afterTail₀ cfgs dats 0 (V0 m) laterLines c r = m ((c : Thread nD τ).loc r) := by
  unfold Pipeline.afterTail₀
  rw [StableHlo.after_of_writes_sub _ _ later_flat_writes h₁, Pipeline.withArrays_of_ne _ c (V0 m c) _ r ha]
  exact V_keep m c r h₀

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not, for any proof data whose
    array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, fetched there or not, for any proof data whose
    array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, fetched there or not, for any proof data whose
    array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, fetched there or not, for any proof data whose
    array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's buffer holds its block at every point, fetched there or not, for any proof data whose
    array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's buffer holds its block at every point, fetched there or not, for any proof data whose
    array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each the whole of its block -/

abbrev wholeA1 : Rect S10000x147 := Rect.unit (s := S10000x147) ![0, 0] S10000x147.size inb_S10000x147_S10000x147_0_0
abbrev wholeA2 : Rect S10000x21 := Rect.unit (s := S10000x21) ![0, 0] S10000x21.size inb_S10000x21_S10000x21_0_0
abbrev wholeW11 : Rect S147x64 := Rect.unit (s := S147x64) ![0, 0] S147x64.size inb_S147x64_S147x64_0_0
abbrev wholeW2 : Rect S64x128 := Rect.unit (s := S64x128) ![0, 0] S64x128.size inb_S64x128_S64x128_0_0
abbrev wholeW21 : Rect S21x64 := Rect.unit (s := S21x64) ![0, 0] S21x64.size inb_S21x64_S21x64_0_0
abbrev wholeOut : Rect S10000x128 := Rect.unit (s := S10000x128) ![0, 0] S10000x128.size inb_S10000x128_S10000x128_0_0

/-! ## What the body leaves in each output window's buffer -/

/-- The first output block after the body: its one store, over the whole block, of the two products
    in a row of the first feature block and its two weight matrices. -/
def outF1 (a : Vec F S10000x147 .f32) (w1 : Vec F S147x64 .f32) (w2 : Vec F S64x128 .f32) : Vec F S10000x128 .f32 :=
  View.canon [⟨wholeOut, k0_pay1 (View.ld a wholeA1) (View.ld w1 wholeW11) (View.ld w2 wholeW2)⟩]

/-- The second output block after the body, likewise from the second feature block. -/
def outF2 (a : Vec F S10000x21 .f32) (w1 : Vec F S21x64 .f32) (w2 : Vec F S64x128 .f32) : Vec F S10000x128 .f32 :=
  View.canon [⟨wholeOut, k0_pay2 (View.ld a wholeA2) (View.ld w1 wholeW21) (View.ld w2 wholeW2)⟩]

/-- One store over the whole block covers the block. -/
theorem coverOut (p0 : Vec F S10000x128 .f32) (y : S10000x128.Idx) :
    ∃ pc ∈ ([⟨wholeOut, p0⟩] : List (View.Piece (Elt F) S10000x128 .f32)), y ∈ pc.1.set :=
  View.cover_of_tiled [⟨wholeOut, p0⟩] S10000x128.size (by rfl) y

/-! ## The body's triple -/

set_option maxHeartbeats 2000000 in
/-- The body on whole staging memrefs, the six inputs' at read contents and the two outputs' at anything,
    runs to its continuation holding the inputs' as they were and each output's at its store's value. -/
theorem sound_kernel (c : Dev nD) (E : Set ℕ) (i : grid0.Coords)
    (arg1 : Memref sig .tc .vmem S10000x147 .f32) (harg1 : arg1.IsWhole) (arg2 : Memref sig .tc .vmem S10000x21 .f32) (harg2 : arg2.IsWhole)
    (arg3 : Memref sig .tc .vmem S147x64 .f32) (harg3 : arg3.IsWhole) (arg4 : Memref sig .tc .vmem S64x128 .f32) (harg4 : arg4.IsWhole)
    (arg5 : Memref sig .tc .vmem S21x64 .f32) (harg5 : arg5.IsWhole) (arg6 : Memref sig .tc .vmem S64x128 .f32) (harg6 : arg6.IsWhole)
    (arg7 : Memref sig .tc .vmem S10000x128 .f32) (harg7 : arg7.IsWhole) (arg8 : Memref sig .tc .vmem S10000x128 .f32) (harg8 : arg8.IsWhole)
    (x0 : Vec F S10000x147 .f32) (x1 : Vec F S10000x21 .f32) (x2 : Vec F S147x64 .f32) (x3 : Vec F S64x128 .f32)
    (x4 : Vec F S21x64 .f32) (x5 : Vec F S64x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (outF1 x0 x2 x3) ∗ owns (c : Thread nD τ) arg8 fullShare (outF2 x1 x4 x5)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverOut _)
  iexists _; isplitr
  swap; · iexact H7
  ipureintro
  exact View.read_writes_eq_canon _ _ _ (coverOut _)

/-! ## The proof data -/

/-- On core `c`: the arrays as the region finds them; after the body at point `t` each input's buffer at its
    block and each output's at its store's value over the input blocks; the invariant only what the body may
    not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outF1 (iblk m c 0 t) (iblk m c 2 t) (iblk m c 3 t)
    | ⟨7, _⟩ => outF2 (iblk m c 1 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outF1 (iblk m c 0 t) (iblk m c 2 t) (iblk m c 3 t) := by dsimp only [dats]
theorem after7 (c : Dev nD) (t : Fin cfg0.N) : (dats m 0 c).after 7 t = outF2 (iblk m c 1 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the triple applies; the invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates; every array of the
    region then holds what the proof data compute and every other unscoped buffer what the later lines leave. -/
theorem run_main : θ_run defs (onTc (τ := τ) (main (F := F))) (s₀ m ρ)
    (Pipeline.FramePost cfgs (dats m) 0 (Pipeline.afterTail₀ cfgs (dats m) 0 (V0 m) laterLines)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := laterLines) (hsub := later_sub) (hfresh := later_fresh) (hkeep := later_keeps)
    (hmain := hmain m Variants.none) (hA := A_eq m) (hΦ := fun _ _ => rfl)

/-! ## The argument arrays end as launched -/

/-- No host line writes `main_arg0`, and the region does not stage it. -/
theorem kept_main_arg0 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg0) = m ((c.tc : Thread nD τ).loc main_arg0) :=
  ((h c).2 main_arg0 (Pipeline.mem_restRefs_of main_arg0 (by decide) (by decide))).trans
    (W_keep m (dats m) c main_arg0 (by decide) (by decide) (by decide))

/-- `main_arg1` is window 0's array: the region only reads it, and no earlier line writes it. -/
theorem kept_main_arg1 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg1) = m ((c.tc : Thread nD τ).loc main_arg1) :=
  (((h c).1 0).trans ((dats m 0 c).arrAt_in 0 rfl _)).trans ((A_eq m c 0).trans (V_keep m c main_arg1 (by decide)))

/-- `main_arg2` is window 1's array: the region only reads it, and no earlier line writes it. -/
theorem kept_main_arg2 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg2) = m ((c.tc : Thread nD τ).loc main_arg2) :=
  (((h c).1 1).trans ((dats m 0 c).arrAt_in 1 rfl _)).trans ((A_eq m c 1).trans (V_keep m c main_arg2 (by decide)))

/-- No host line writes `main_arg3`, and the region does not stage it. -/
theorem kept_main_arg3 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg3) = m ((c.tc : Thread nD τ).loc main_arg3) :=
  ((h c).2 main_arg3 (Pipeline.mem_restRefs_of main_arg3 (by decide) (by decide))).trans
    (W_keep m (dats m) c main_arg3 (by decide) (by decide) (by decide))

/-- No host line writes `main_arg4`, and the region does not stage it. -/
theorem kept_main_arg4 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg4) = m ((c.tc : Thread nD τ).loc main_arg4) :=
  ((h c).2 main_arg4 (Pipeline.mem_restRefs_of main_arg4 (by decide) (by decide))).trans
    (W_keep m (dats m) c main_arg4 (by decide) (by decide) (by decide))

/-- No host line writes `main_arg5`, and the region does not stage it. -/
theorem kept_main_arg5 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg5) = m ((c.tc : Thread nD τ).loc main_arg5) :=
  ((h c).2 main_arg5 (Pipeline.mem_restRefs_of main_arg5 (by decide) (by decide))).trans
    (W_keep m (dats m) c main_arg5 (by decide) (by decide) (by decide))

/-- No host line writes `main_arg6`, and the region does not stage it. -/
theorem kept_main_arg6 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg6) = m ((c.tc : Thread nD τ).loc main_arg6) :=
  ((h c).2 main_arg6 (Pipeline.mem_restRefs_of main_arg6 (by decide) (by decide))).trans
    (W_keep m (dats m) c main_arg6 (by decide) (by decide) (by decide))

/-- `main_arg7` is window 2's array: the region only reads it, and no earlier line writes it. -/
theorem kept_main_arg7 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg7) = m ((c.tc : Thread nD τ).loc main_arg7) :=
  (((h c).1 2).trans ((dats m 0 c).arrAt_in 2 rfl _)).trans ((A_eq m c 2).trans (V_keep m c main_arg7 (by decide)))

/-- `main_arg8` is window 3's array: the region only reads it, and no earlier line writes it. -/
theorem kept_main_arg8 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg8) = m ((c.tc : Thread nD τ).loc main_arg8) :=
  (((h c).1 3).trans ((dats m 0 c).arrAt_in 3 rfl _)).trans ((A_eq m c 3).trans (V_keep m c main_arg8 (by decide)))

/-- `main_arg9` is window 4's array: the region only reads it, and no earlier line writes it. -/
theorem kept_main_arg9 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg9) = m ((c.tc : Thread nD τ).loc main_arg9) :=
  (((h c).1 4).trans ((dats m 0 c).arrAt_in 4 rfl _)).trans ((A_eq m c 4).trans (V_keep m c main_arg9 (by decide)))

/-- `main_arg10` is window 5's array: the region only reads it, and no earlier line writes it. -/
theorem kept_main_arg10 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg10) = m ((c.tc : Thread nD τ).loc main_arg10) :=
  (((h c).1 5).trans ((dats m 0 c).arrAt_in 5 rfl _)).trans ((A_eq m c 5).trans (V_keep m c main_arg10 (by decide)))

/-- No host line writes `main_arg11`, and the region does not stage it. -/
theorem kept_main_arg11 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg11) = m ((c.tc : Thread nD τ).loc main_arg11) :=
  ((h c).2 main_arg11 (Pipeline.mem_restRefs_of main_arg11 (by decide) (by decide))).trans
    (W_keep m (dats m) c main_arg11 (by decide) (by decide) (by decide))

/-- No host line writes `main_arg12`, and the region does not stage it. -/
theorem kept_main_arg12 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg12) = m ((c.tc : Thread nD τ).loc main_arg12) :=
  ((h c).2 main_arg12 (Pipeline.mem_restRefs_of main_arg12 (by decide) (by decide))).trans
    (W_keep m (dats m) c main_arg12 (by decide) (by decide) (by decide))

/-- No host line writes `main_arg13`, and the region does not stage it. -/
theorem kept_main_arg13 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg13) = m ((c.tc : Thread nD τ).loc main_arg13) :=
  ((h c).2 main_arg13 (Pipeline.mem_restRefs_of main_arg13 (by decide) (by decide))).trans
    (W_keep m (dats m) c main_arg13 (by decide) (by decide) (by decide))

/-- No host line writes `main_arg14`, and the region does not stage it. -/
theorem kept_main_arg14 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg14) = m ((c.tc : Thread nD τ).loc main_arg14) :=
  ((h c).2 main_arg14 (Pipeline.mem_restRefs_of main_arg14 (by decide) (by decide))).trans
    (W_keep m (dats m) c main_arg14 (by decide) (by decide) (by decide))

/-- No host line writes `main_arg15`, and the region does not stage it. -/
theorem kept_main_arg15 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg15) = m ((c.tc : Thread nD τ).loc main_arg15) :=
  ((h c).2 main_arg15 (Pipeline.mem_restRefs_of main_arg15 (by decide) (by decide))).trans
    (W_keep m (dats m) c main_arg15 (by decide) (by decide) (by decide))

/-- No host line writes `main_arg16`, and the region does not stage it. -/
theorem kept_main_arg16 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg16) = m ((c.tc : Thread nD τ).loc main_arg16) :=
  ((h c).2 main_arg16 (Pipeline.mem_restRefs_of main_arg16 (by decide) (by decide))).trans
    (W_keep m (dats m) c main_arg16 (by decide) (by decide) (by decide))

/-- No host line writes `main_arg17`, and the region does not stage it. -/
theorem kept_main_arg17 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg17) = m ((c.tc : Thread nD τ).loc main_arg17) :=
  ((h c).2 main_arg17 (Pipeline.mem_restRefs_of main_arg17 (by decide) (by decide))).trans
    (W_keep m (dats m) c main_arg17 (by decide) (by decide) (by decide))

/-- No host line writes `main_arg18`, and the region does not stage it. -/
theorem kept_main_arg18 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg18) = m ((c.tc : Thread nD τ).loc main_arg18) :=
  ((h c).2 main_arg18 (Pipeline.mem_restRefs_of main_arg18 (by decide) (by decide))).trans
    (W_keep m (dats m) c main_arg18 (by decide) (by decide) (by decide))

/-- No host line writes `main_arg19`, and the region does not stage it. -/
theorem kept_main_arg19 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg19) = m ((c.tc : Thread nD τ).loc main_arg19) :=
  ((h c).2 main_arg19 (Pipeline.mem_restRefs_of main_arg19 (by decide) (by decide))).trans
    (W_keep m (dats m) c main_arg19 (by decide) (by decide) (by decide))

/-- No host line writes `main_arg20`, and the region does not stage it. -/
theorem kept_main_arg20 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg20) = m ((c.tc : Thread nD τ).loc main_arg20) :=
  ((h c).2 main_arg20 (Pipeline.mem_restRefs_of main_arg20 (by decide) (by decide))).trans
    (W_keep m (dats m) c main_arg20 (by decide) (by decide) (by decide))

/-- No host line writes `main_arg21`, and the region does not stage it. -/
theorem kept_main_arg21 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg21) = m ((c.tc : Thread nD τ).loc main_arg21) :=
  ((h c).2 main_arg21 (Pipeline.mem_restRefs_of main_arg21 (by decide) (by decide))).trans
    (W_keep m (dats m) c main_arg21 (by decide) (by decide) (by decide))

/-- No host line writes `main_arg22`, and the region does not stage it. -/
theorem kept_main_arg22 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg22) = m ((c.tc : Thread nD τ).loc main_arg22) :=
  ((h c).2 main_arg22 (Pipeline.mem_restRefs_of main_arg22 (by decide) (by decide))).trans
    (W_keep m (dats m) c main_arg22 (by decide) (by decide) (by decide))

/-- No host line writes `main_arg23`, and the region does not stage it. -/
theorem kept_main_arg23 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg23) = m ((c.tc : Thread nD τ).loc main_arg23) :=
  ((h c).2 main_arg23 (Pipeline.mem_restRefs_of main_arg23 (by decide) (by decide))).trans
    (W_keep m (dats m) c main_arg23 (by decide) (by decide) (by decide))

/-- No host line writes `main_arg24`, and the region does not stage it. -/
theorem kept_main_arg24 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg24) = m ((c.tc : Thread nD τ).loc main_arg24) :=
  ((h c).2 main_arg24 (Pipeline.mem_restRefs_of main_arg24 (by decide) (by decide))).trans
    (W_keep m (dats m) c main_arg24 (by decide) (by decide) (by decide))

/-- No host line writes `main_arg25`, and the region does not stage it. -/
theorem kept_main_arg25 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg25) = m ((c.tc : Thread nD τ).loc main_arg25) :=
  ((h c).2 main_arg25 (Pipeline.mem_restRefs_of main_arg25 (by decide) (by decide))).trans
    (W_keep m (dats m) c main_arg25 (by decide) (by decide) (by decide))

/-- No host line writes `main_arg26`, and the region does not stage it. -/
theorem kept_main_arg26 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg26) = m ((c.tc : Thread nD τ).loc main_arg26) :=
  ((h c).2 main_arg26 (Pipeline.mem_restRefs_of main_arg26 (by decide) (by decide))).trans
    (W_keep m (dats m) c main_arg26 (by decide) (by decide) (by decide))

/-- No host line writes `main_arg27`, and the region does not stage it. -/
theorem kept_main_arg27 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg27) = m ((c.tc : Thread nD τ).loc main_arg27) :=
  ((h c).2 main_arg27 (Pipeline.mem_restRefs_of main_arg27 (by decide) (by decide))).trans
    (W_keep m (dats m) c main_arg27 (by decide) (by decide) (by decide))

/-- No host line writes `main_arg28`, and the region does not stage it. -/
theorem kept_main_arg28 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg28) = m ((c.tc : Thread nD τ).loc main_arg28) :=
  ((h c).2 main_arg28 (Pipeline.mem_restRefs_of main_arg28 (by decide) (by decide))).trans
    (W_keep m (dats m) c main_arg28 (by decide) (by decide) (by decide))

/-- No host line writes `main_arg29`, and the region does not stage it. -/
theorem kept_main_arg29 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg29) = m ((c.tc : Thread nD τ).loc main_arg29) :=
  ((h c).2 main_arg29 (Pipeline.mem_restRefs_of main_arg29 (by decide) (by decide))).trans
    (W_keep m (dats m) c main_arg29 (by decide) (by decide) (by decide))

/-- The frame: @main runs to the end, faults nowhere, and leaves its thirty argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => ⟨kept_main_arg0 m c r h, kept_main_arg1 m c r h, kept_main_arg2 m c r h, kept_main_arg3 m c r h, kept_main_arg4 m c r h, kept_main_arg5 m c r h, kept_main_arg6 m c r h, kept_main_arg7 m c r h, kept_main_arg8 m c r h, kept_main_arg9 m c r h, kept_main_arg10 m c r h, kept_main_arg11 m c r h, kept_main_arg12 m c r h, kept_main_arg13 m c r h, kept_main_arg14 m c r h, kept_main_arg15 m c r h, kept_main_arg16 m c r h, kept_main_arg17 m c r h, kept_main_arg18 m c r h, kept_main_arg19 m c r h, kept_main_arg20 m c r h, kept_main_arg21 m c r h, kept_main_arg22 m c r h, kept_main_arg23 m c r h, kept_main_arg24 m c r h, kept_main_arg25 m c r h, kept_main_arg26 m c r h, kept_main_arg27 m c r h, kept_main_arg28 m c r h, kept_main_arg29 m c r h⟩) (run_main m ρ)

end Cert.Kernel.Hand

end
-- ==== Proof.EdgeHostIdeal.lean ====
/-
  The host program around the edge-MLP region.

  @main is three stretches: seventeen host lines that slice the two rows of the edge list and form
  xh = v * (1 / (1 + exp (-v))) with v = x * lin_w + lin_b; the one region, which writes the two
  edge-feature products f1 and f2 block by block; and 176 later host lines (the gather of xh along the
  sources, the two scatter-adds onto the targets, the dense node chain, the per-graph normalisation and
  the last linear layer).  The later lines are taken in the four consecutive pieces the printed program
  cuts them into.

  Two facts about the later lines carry everything below: each of them writes exactly one buffer, its own
  result, and that buffer is none of the thirty argument arrays and none of the eight arrays the region's
  windows stage.  So every argument array still holds its launch contents when @main returns, and the
  later lines leave the region's arrays alone.
-/
import proofs.«177343_j24163486008144_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The stretches -/

/-- The host lines after the region, in the four pieces the program is printed in. -/
abbrev laterLines : List (List (HloOp τ sig (Elt F))) :=
  [main_part0_ops1, main_part1_ops0, main_part2_ops0, main_part3_ops0]

/-- Core `c`'s buffer contents when the region is entered: the launch contents after the seventeen
    earlier host lines. -/
abbrev V0 (c : Dev nD) : Valuation τ sig (Elt F) :=
  StableHlo.after (List.flatten [main_part0_ops0]) (fun b => m (c, b))
/-- The same, read at a TensorCore reference. -/
abbrev V (c : Dev nD) (b : Ref sig .tc) : Buf (Elt F) ((c : Thread nD τ).loc b) := V0 m c (Proc.devRef .tc b)

/-! ## No line allocates -/

theorem earlier_fresh : (main_part0_ops0 : List (HloOp τ sig (Elt F))).Forall fun op => op.fresh = ∅ := by
  simp only [List.Forall]; repeat' constructor
theorem later0_fresh : (main_part0_ops1 : List (HloOp τ sig (Elt F))).Forall fun op => op.fresh = ∅ := by
  simp only [List.Forall]; repeat' constructor
theorem later1_fresh : (main_part1_ops0 : List (HloOp τ sig (Elt F))).Forall fun op => op.fresh = ∅ := by
  simp only [List.Forall]; repeat' constructor
theorem later2_fresh : (main_part2_ops0 : List (HloOp τ sig (Elt F))).Forall fun op => op.fresh = ∅ := by
  simp only [List.Forall]; repeat' constructor
theorem later3_fresh : (main_part3_ops0 : List (HloOp τ sig (Elt F))).Forall fun op => op.fresh = ∅ := by
  simp only [List.Forall]; repeat' constructor

/-! ## What each stretch writes -/

/-- The result buffers of the seventeen earlier lines. -/
abbrev earlierResults : List (Ref sig .tc) := [main_v0, main_v1, main_v2, main_v3, main_v4, main_v5, main_v6, main_v7, main_v8, main_v9, main_cst, main_v10, main_v11, main_cst_0, main_v12, main_v13, main_v14]
/-- The result buffers of the 176 later lines. -/
abbrev laterResults : List (Ref sig .tc) := [main_c, main_v16, main_v17, main_c_1, main_v18, main_v19, main_v20, main_v21, main_v22, main_v23, main_cst_2, main_v24, main_v25, main_v26, main_v27, main_v28, main_v29, main_v30, main_v31, main_v32, main_v33, main_v34, main_v35, main_v36, main_v37, main_v38, main_cst_3, main_v39, main_v40, main_cst_4, main_v41, main_v42, main_v43, main_v44, main_cst_5, main_v45, main_v46, main_v47, main_v48, main_v49, main_v50, main_v51, main_v52, main_v53, main_v54, main_v55, main_v56, main_v57, main_v58, main_v59, main_cst_6, main_v60, main_v61, main_cst_7, main_v62, main_v63, main_v64, main_v65, main_v66, main_v67, main_v68, main_v69, main_v70, main_v71, main_v72, main_v73, main_v74, main_v75, main_v76, main_v77, main_v78, main_v79, main_v80, main_cst_8, main_v81, main_v82, main_cst_9, main_v83, main_v84, main_v85, main_v86, main_v87, main_v88, main_v89, main_v90, main_v91, main_v92, main_v93, main_v94, main_v95, main_v96, main_cst_10, main_v97, main_v98, main_cst_11, main_v99, main_v100, main_v101, main_v102, main_v103, main_v104, main_v105, main_v106, main_v107, main_v108, main_v109, main_v110, main_v111, main_v112, main_cst_12, main_v113, main_v114, main_cst_13, main_v115, main_v116, main_v117, main_v118, main_cst_14, main_v119, main_cst_15, main_v120, main_v121, main_v122, main_cst_16, main_v123, main_v124, main_cst_17, main_v125, main_v126, main_v127, main_v128, main_v129, main_c_18, main_v130, main_v131, main_c_19, main_v132, main_v133, main_v134, main_v135, main_v136, main_v137, main_v138, main_v139, main_v140, main_v141, main_cst_20, main_v142, main_v143, main_v144, main_v145, main_v146, main_cst_21, main_v147, main_v148, main_v149, main_v150, main_v151, main_v152, main_c_22, main_v153, main_v154, main_c_23, main_v155, main_v156, main_v157, main_v158, main_v159, main_v160, main_v161, main_v162, main_v163, main_v164, main_v165, main_v166, main_v167]

theorem earlier_writes : (main_part0_ops0 : List (HloOp τ sig (Elt F))).Forall fun op =>
    op.writes ⊆ (earlierResults.map (Proc.devRef (τ := τ) .tc)).toFinset := by
  simp only [List.Forall]; repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
theorem later0_writes : (main_part0_ops1 : List (HloOp τ sig (Elt F))).Forall fun op =>
    op.writes ⊆ (laterResults.map (Proc.devRef (τ := τ) .tc)).toFinset := by
  simp only [List.Forall]; repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
theorem later1_writes : (main_part1_ops0 : List (HloOp τ sig (Elt F))).Forall fun op =>
    op.writes ⊆ (laterResults.map (Proc.devRef (τ := τ) .tc)).toFinset := by
  simp only [List.Forall]; repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
theorem later2_writes : (main_part2_ops0 : List (HloOp τ sig (Elt F))).Forall fun op =>
    op.writes ⊆ (laterResults.map (Proc.devRef (τ := τ) .tc)).toFinset := by
  simp only [List.Forall]; repeat' constructor
  all_goals (simp only [StableHlo.nullary_writes, StableHlo.unary_writes, StableHlo.binary_writes, StableHlo.ternary_writes, StableHlo.reshape_writes, Finset.singleton_subset_iff, List.mem_toFinset]; exact List.mem_map_of_mem (by decide))
theorem later3_writes : (main_part3_ops0 : List (HloOp τ sig (Elt F))).Forall fun op =>
    op.writes ⊆ (laterResults.map (Proc.devRef (τ := τ) .tc)).toFinset := by
  simp only [List.Forall]; repeat' constructor
  all_goals (simp only [StableHlo.nullary_writes, StableHlo.unary_writes, StableHlo.binary_writes, StableHlo.ternary_writes, StableHlo.reshape_writes, Finset.singleton_subset_iff, List.mem_toFinset]; exact List.mem_map_of_mem (by decide))

/-- Every later line writes only among the later results. -/
theorem later_writes : ∀ ops ∈ (laterLines : List (List (HloOp τ sig (Elt F)))), ∀ op ∈ ops,
    op.writes ⊆ (laterResults.map (Proc.devRef (τ := τ) .tc)).toFinset := by
  intro ops hops op hop
  simp only [List.mem_cons, List.mem_nil_iff, or_false] at hops
  rcases hops with rfl | rfl | rfl | rfl
  · exact (List.forall_iff_forall_mem.mp later0_writes) op hop
  · exact (List.forall_iff_forall_mem.mp later1_writes) op hop
  · exact (List.forall_iff_forall_mem.mp later2_writes) op hop
  · exact (List.forall_iff_forall_mem.mp later3_writes) op hop

/-- The same over the four pieces run as one line. -/
theorem later_flat_writes : (List.flatten (laterLines : List (List (HloOp τ sig (Elt F))))).Forall fun op =>
    op.writes ⊆ (laterResults.map (Proc.devRef (τ := τ) .tc)).toFinset := by
  rw [List.forall_iff_forall_mem]
  intro op hop
  obtain ⟨ops, hops, hmem⟩ := List.mem_flatten.mp hop
  exact later_writes ops hops op hmem

/-- A buffer that is no later result is not written by a later line. -/
theorem later_keeps_ref (r : Ref sig .tc) (hr : r ∉ laterResults) :
    ∀ ops ∈ (laterLines : List (List (HloOp τ sig (Elt F)))), ∀ op ∈ ops, Proc.devRef (τ := τ) .tc r ∉ op.writes := by
  intro ops hops op hop hb
  obtain ⟨y, hy, he⟩ := List.mem_map.mp (List.mem_toFinset.mp (later_writes ops hops op hop hb))
  exact hr (Proc.devRef_injective _ he ▸ hy)

/-! ## @main around the region -/

/-- @main is the earlier lines, the region, the later lines: it reduces to the region continued by the
    later lines, the region entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((laterLines : List (List (HloOp τ sig (Elt F)))).map StableHlo.seq)) :=
  Pipeline.hmain_around cfgs 0 defs₀ 𝒱₀ m main [main_part0_ops0] laterLines (by simp only [List.Forall]; exact main_part0_ops0_sub)
    (by simp only [List.Forall]; exact earlier_fresh) main_chain_windows

/-- The later lines touch unscoped TensorCore buffers only: the region's arrays and the buffers that bypass it. -/
theorem later_sub : ∀ ops ∈ (laterLines : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp main_part0_ops1_sub) op hop)
  · exact Pipeline.sub_ucRefs op ((List.forall_iff_forall_mem.mp main_part1_ops0_sub) op hop)
  · exact Pipeline.sub_ucRefs op ((List.forall_iff_forall_mem.mp main_part2_ops0_sub) op hop)
  · exact Pipeline.sub_ucRefs op ((List.forall_iff_forall_mem.mp main_part3_ops0_sub) op hop)

/-- They allocate nothing. -/
theorem later_fresh : ∀ ops ∈ (laterLines : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp later0_fresh) op hop
  · exact (List.forall_iff_forall_mem.mp later1_fresh) op hop
  · exact (List.forall_iff_forall_mem.mp later2_fresh) op hop
  · exact (List.forall_iff_forall_mem.mp later3_fresh) op hop

/-- And they write none of the eight arrays the region's windows stage. -/
theorem later_keeps : ∀ ops ∈ (laterLines : List (List (HloOp τ sig (Elt F)))), ∀ op ∈ ops,
    ∀ w, Proc.devRef .tc (Pipeline.arrRef spec0 w) ∉ op.writes := by
  intro ops hops op hop w
  exact later_keeps_ref (Pipeline.arrRef spec0 w) (by revert w; decide) ops hops op hop

end Cert.KernelIdeal.Hand

end
-- ==== Proof.EdgeRegionIdeal.lean ====
/-
  The edge-MLP region: what its body leaves, and the run of @main around it.

  At each of the hundred grid points the body is handed a block of ten thousand rows of each feature
  array and the four weight matrices whole.  It stores, over the whole of each output block,
  (A * W1) * W2 for the first feature array and weights and the same for the second: two matrix products
  in a row, each onto a zero accumulator.  It also loads each output block once before storing it and
  uses nothing of what it loaded, so the outputs may hold anything when the body starts.

  The proof data say: every input window's buffer holds its array's block at every point, fetched there
  or not (the weight matrices are fetched once; their block index never moves), and every output
  window's buffer holds, after the body, the one store's value over the whole block.  The body's triple
  is run symbolically; the run of @main then follows from the library's theorem for a program that is
  host lines, one region, host lines.  Every argument array ends as launched: a staged one because the
  region only reads it, the others because no line writes them.
-/
import proofs.«177343_j24163486008144_1_alg».proof.Proof.EdgeHostIdeal
import proofs.«177343_j24163486008144_1_alg».proof.Proof.Gen.KernelIdeal.Skeleton
import proofs.«177343_j24163486008144_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays before and after the host lines -/

/-- A buffer that is no result of an earlier line is found by the region as launched. -/
theorem V_keep (c : Dev nD) (r : Ref sig .tc) (hr : r ∉ earlierResults) : V m c r = m ((c : Thread nD τ).loc r) := by
  unfold V V0
  simp only [List.flatten_cons, List.flatten_nil, List.append_nil]
  exact StableHlo.after_of_writes_sub _ _ earlier_writes hr

/-- A buffer that is no result of any host line and no array of the region ends as launched. -/
theorem W_keep (dats : (p : Fin _) → (c : Dev nD) → Dat τ (Elt F) Unit ℕ (UR sig nD τ) ℕ (cfgs p) c) (c : Dev nD)
    (r : Ref sig .tc) (h₁ : r ∉ laterResults) (h₀ : r ∉ earlierResults) (ha : ∀ w, Pipeline.arrRef spec0 w ≠ r) :
    Pipeline.afterTail₀ cfgs dats 0 (V0 m) laterLines c r = m ((c : Thread nD τ).loc r) := by
  unfold Pipeline.afterTail₀
  rw [StableHlo.after_of_writes_sub _ _ later_flat_writes h₁, Pipeline.withArrays_of_ne _ c (V0 m c) _ r ha]
  exact V_keep m c r h₀

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not, for any proof data whose
    array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, fetched there or not, for any proof data whose
    array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, fetched there or not, for any proof data whose
    array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, fetched there or not, for any proof data whose
    array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's buffer holds its block at every point, fetched there or not, for any proof data whose
    array is the region-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's buffer holds its block at every point, fetched there or not, for any proof data whose
    array is the region-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each the whole of its block -/

abbrev wholeA1 : Rect S10000x147 := Rect.unit (s := S10000x147) ![0, 0] S10000x147.size inb_S10000x147_S10000x147_0_0
abbrev wholeA2 : Rect S10000x21 := Rect.unit (s := S10000x21) ![0, 0] S10000x21.size inb_S10000x21_S10000x21_0_0
abbrev wholeW11 : Rect S147x64 := Rect.unit (s := S147x64) ![0, 0] S147x64.size inb_S147x64_S147x64_0_0
abbrev wholeW2 : Rect S64x128 := Rect.unit (s := S64x128) ![0, 0] S64x128.size inb_S64x128_S64x128_0_0
abbrev wholeW21 : Rect S21x64 := Rect.unit (s := S21x64) ![0, 0] S21x64.size inb_S21x64_S21x64_0_0
abbrev wholeOut : Rect S10000x128 := Rect.unit (s := S10000x128) ![0, 0] S10000x128.size inb_S10000x128_S10000x128_0_0

/-! ## What the body leaves in each output window's buffer -/

/-- The first output block after the body: its one store, over the whole block, of the two products
    in a row of the first feature block and its two weight matrices. -/
def outF1 (a : Vec F S10000x147 .f32) (w1 : Vec F S147x64 .f32) (w2 : Vec F S64x128 .f32) : Vec F S10000x128 .f32 :=
  View.canon [⟨wholeOut, k0_pay1 (View.ld a wholeA1) (View.ld w1 wholeW11) (View.ld w2 wholeW2)⟩]

/-- The second output block after the body, likewise from the second feature block. -/
def outF2 (a : Vec F S10000x21 .f32) (w1 : Vec F S21x64 .f32) (w2 : Vec F S64x128 .f32) : Vec F S10000x128 .f32 :=
  View.canon [⟨wholeOut, k0_pay2 (View.ld a wholeA2) (View.ld w1 wholeW21) (View.ld w2 wholeW2)⟩]

/-- One store over the whole block covers the block. -/
theorem coverOut (p0 : Vec F S10000x128 .f32) (y : S10000x128.Idx) :
    ∃ pc ∈ ([⟨wholeOut, p0⟩] : List (View.Piece (Elt F) S10000x128 .f32)), y ∈ pc.1.set :=
  View.cover_of_tiled [⟨wholeOut, p0⟩] S10000x128.size (by rfl) y

/-! ## The body's triple -/

set_option maxHeartbeats 2000000 in
/-- The body on whole staging memrefs, the six inputs' at read contents and the two outputs' at anything,
    runs to its continuation holding the inputs' as they were and each output's at its store's value. -/
theorem sound_kernel (c : Dev nD) (E : Set ℕ) (i : grid0.Coords)
    (arg1 : Memref sig .tc .vmem S10000x147 .f32) (harg1 : arg1.IsWhole) (arg2 : Memref sig .tc .vmem S10000x21 .f32) (harg2 : arg2.IsWhole)
    (arg3 : Memref sig .tc .vmem S147x64 .f32) (harg3 : arg3.IsWhole) (arg4 : Memref sig .tc .vmem S64x128 .f32) (harg4 : arg4.IsWhole)
    (arg5 : Memref sig .tc .vmem S21x64 .f32) (harg5 : arg5.IsWhole) (arg6 : Memref sig .tc .vmem S64x128 .f32) (harg6 : arg6.IsWhole)
    (arg7 : Memref sig .tc .vmem S10000x128 .f32) (harg7 : arg7.IsWhole) (arg8 : Memref sig .tc .vmem S10000x128 .f32) (harg8 : arg8.IsWhole)
    (x0 : Vec F S10000x147 .f32) (x1 : Vec F S10000x21 .f32) (x2 : Vec F S147x64 .f32) (x3 : Vec F S64x128 .f32)
    (x4 : Vec F S21x64 .f32) (x5 : Vec F S64x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (outF1 x0 x2 x3) ∗ owns (c : Thread nD τ) arg8 fullShare (outF2 x1 x4 x5)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverOut _)
  iexists _; isplitr
  swap; · iexact H7
  ipureintro
  exact View.read_writes_eq_canon _ _ _ (coverOut _)

/-! ## The proof data -/

/-- On core `c`: the arrays as the region finds them; after the body at point `t` each input's buffer at its
    block and each output's at its store's value over the input blocks; the invariant only what the body may
    not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outF1 (iblk m c 0 t) (iblk m c 2 t) (iblk m c 3 t)
    | ⟨7, _⟩ => outF2 (iblk m c 1 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outF1 (iblk m c 0 t) (iblk m c 2 t) (iblk m c 3 t) := by dsimp only [dats]
theorem after7 (c : Dev nD) (t : Fin cfg0.N) : (dats m 0 c).after 7 t = outF2 (iblk m c 1 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the triple applies; the invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates; every array of the
    region then holds what the proof data compute and every other unscoped buffer what the later lines leave. -/
theorem run_main : θ_run defs (onTc (τ := τ) (main (F := F))) (s₀ m ρ)
    (Pipeline.FramePost cfgs (dats m) 0 (Pipeline.afterTail₀ cfgs (dats m) 0 (V0 m) laterLines)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := laterLines) (hsub := later_sub) (hfresh := later_fresh) (hkeep := later_keeps)
    (hmain := hmain m Variants.none) (hA := A_eq m) (hΦ := fun _ _ => rfl)

/-! ## The argument arrays end as launched -/

/-- No host line writes `main_arg0`, and the region does not stage it. -/
theorem kept_main_arg0 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg0) = m ((c.tc : Thread nD τ).loc main_arg0) :=
  ((h c).2 main_arg0 (Pipeline.mem_restRefs_of main_arg0 (by decide) (by decide))).trans
    (W_keep m (dats m) c main_arg0 (by decide) (by decide) (by decide))

/-- `main_arg1` is window 0's array: the region only reads it, and no earlier line writes it. -/
theorem kept_main_arg1 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg1) = m ((c.tc : Thread nD τ).loc main_arg1) :=
  (((h c).1 0).trans ((dats m 0 c).arrAt_in 0 rfl _)).trans ((A_eq m c 0).trans (V_keep m c main_arg1 (by decide)))

/-- `main_arg2` is window 1's array: the region only reads it, and no earlier line writes it. -/
theorem kept_main_arg2 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg2) = m ((c.tc : Thread nD τ).loc main_arg2) :=
  (((h c).1 1).trans ((dats m 0 c).arrAt_in 1 rfl _)).trans ((A_eq m c 1).trans (V_keep m c main_arg2 (by decide)))

/-- No host line writes `main_arg3`, and the region does not stage it. -/
theorem kept_main_arg3 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg3) = m ((c.tc : Thread nD τ).loc main_arg3) :=
  ((h c).2 main_arg3 (Pipeline.mem_restRefs_of main_arg3 (by decide) (by decide))).trans
    (W_keep m (dats m) c main_arg3 (by decide) (by decide) (by decide))

/-- No host line writes `main_arg4`, and the region does not stage it. -/
theorem kept_main_arg4 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg4) = m ((c.tc : Thread nD τ).loc main_arg4) :=
  ((h c).2 main_arg4 (Pipeline.mem_restRefs_of main_arg4 (by decide) (by decide))).trans
    (W_keep m (dats m) c main_arg4 (by decide) (by decide) (by decide))

/-- No host line writes `main_arg5`, and the region does not stage it. -/
theorem kept_main_arg5 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg5) = m ((c.tc : Thread nD τ).loc main_arg5) :=
  ((h c).2 main_arg5 (Pipeline.mem_restRefs_of main_arg5 (by decide) (by decide))).trans
    (W_keep m (dats m) c main_arg5 (by decide) (by decide) (by decide))

/-- No host line writes `main_arg6`, and the region does not stage it. -/
theorem kept_main_arg6 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg6) = m ((c.tc : Thread nD τ).loc main_arg6) :=
  ((h c).2 main_arg6 (Pipeline.mem_restRefs_of main_arg6 (by decide) (by decide))).trans
    (W_keep m (dats m) c main_arg6 (by decide) (by decide) (by decide))

/-- `main_arg7` is window 2's array: the region only reads it, and no earlier line writes it. -/
theorem kept_main_arg7 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg7) = m ((c.tc : Thread nD τ).loc main_arg7) :=
  (((h c).1 2).trans ((dats m 0 c).arrAt_in 2 rfl _)).trans ((A_eq m c 2).trans (V_keep m c main_arg7 (by decide)))

/-- `main_arg8` is window 3's array: the region only reads it, and no earlier line writes it. -/
theorem kept_main_arg8 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg8) = m ((c.tc : Thread nD τ).loc main_arg8) :=
  (((h c).1 3).trans ((dats m 0 c).arrAt_in 3 rfl _)).trans ((A_eq m c 3).trans (V_keep m c main_arg8 (by decide)))

/-- `main_arg9` is window 4's array: the region only reads it, and no earlier line writes it. -/
theorem kept_main_arg9 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg9) = m ((c.tc : Thread nD τ).loc main_arg9) :=
  (((h c).1 4).trans ((dats m 0 c).arrAt_in 4 rfl _)).trans ((A_eq m c 4).trans (V_keep m c main_arg9 (by decide)))

/-- `main_arg10` is window 5's array: the region only reads it, and no earlier line writes it. -/
theorem kept_main_arg10 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg10) = m ((c.tc : Thread nD τ).loc main_arg10) :=
  (((h c).1 5).trans ((dats m 0 c).arrAt_in 5 rfl _)).trans ((A_eq m c 5).trans (V_keep m c main_arg10 (by decide)))

/-- No host line writes `main_arg11`, and the region does not stage it. -/
theorem kept_main_arg11 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg11) = m ((c.tc : Thread nD τ).loc main_arg11) :=
  ((h c).2 main_arg11 (Pipeline.mem_restRefs_of main_arg11 (by decide) (by decide))).trans
    (W_keep m (dats m) c main_arg11 (by decide) (by decide) (by decide))

/-- No host line writes `main_arg12`, and the region does not stage it. -/
theorem kept_main_arg12 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg12) = m ((c.tc : Thread nD τ).loc main_arg12) :=
  ((h c).2 main_arg12 (Pipeline.mem_restRefs_of main_arg12 (by decide) (by decide))).trans
    (W_keep m (dats m) c main_arg12 (by decide) (by decide) (by decide))

/-- No host line writes `main_arg13`, and the region does not stage it. -/
theorem kept_main_arg13 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg13) = m ((c.tc : Thread nD τ).loc main_arg13) :=
  ((h c).2 main_arg13 (Pipeline.mem_restRefs_of main_arg13 (by decide) (by decide))).trans
    (W_keep m (dats m) c main_arg13 (by decide) (by decide) (by decide))

/-- No host line writes `main_arg14`, and the region does not stage it. -/
theorem kept_main_arg14 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg14) = m ((c.tc : Thread nD τ).loc main_arg14) :=
  ((h c).2 main_arg14 (Pipeline.mem_restRefs_of main_arg14 (by decide) (by decide))).trans
    (W_keep m (dats m) c main_arg14 (by decide) (by decide) (by decide))

/-- No host line writes `main_arg15`, and the region does not stage it. -/
theorem kept_main_arg15 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg15) = m ((c.tc : Thread nD τ).loc main_arg15) :=
  ((h c).2 main_arg15 (Pipeline.mem_restRefs_of main_arg15 (by decide) (by decide))).trans
    (W_keep m (dats m) c main_arg15 (by decide) (by decide) (by decide))

/-- No host line writes `main_arg16`, and the region does not stage it. -/
theorem kept_main_arg16 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg16) = m ((c.tc : Thread nD τ).loc main_arg16) :=
  ((h c).2 main_arg16 (Pipeline.mem_restRefs_of main_arg16 (by decide) (by decide))).trans
    (W_keep m (dats m) c main_arg16 (by decide) (by decide) (by decide))

/-- No host line writes `main_arg17`, and the region does not stage it. -/
theorem kept_main_arg17 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg17) = m ((c.tc : Thread nD τ).loc main_arg17) :=
  ((h c).2 main_arg17 (Pipeline.mem_restRefs_of main_arg17 (by decide) (by decide))).trans
    (W_keep m (dats m) c main_arg17 (by decide) (by decide) (by decide))

/-- No host line writes `main_arg18`, and the region does not stage it. -/
theorem kept_main_arg18 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg18) = m ((c.tc : Thread nD τ).loc main_arg18) :=
  ((h c).2 main_arg18 (Pipeline.mem_restRefs_of main_arg18 (by decide) (by decide))).trans
    (W_keep m (dats m) c main_arg18 (by decide) (by decide) (by decide))

/-- No host line writes `main_arg19`, and the region does not stage it. -/
theorem kept_main_arg19 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg19) = m ((c.tc : Thread nD τ).loc main_arg19) :=
  ((h c).2 main_arg19 (Pipeline.mem_restRefs_of main_arg19 (by decide) (by decide))).trans
    (W_keep m (dats m) c main_arg19 (by decide) (by decide) (by decide))

/-- No host line writes `main_arg20`, and the region does not stage it. -/
theorem kept_main_arg20 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg20) = m ((c.tc : Thread nD τ).loc main_arg20) :=
  ((h c).2 main_arg20 (Pipeline.mem_restRefs_of main_arg20 (by decide) (by decide))).trans
    (W_keep m (dats m) c main_arg20 (by decide) (by decide) (by decide))

/-- No host line writes `main_arg21`, and the region does not stage it. -/
theorem kept_main_arg21 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg21) = m ((c.tc : Thread nD τ).loc main_arg21) :=
  ((h c).2 main_arg21 (Pipeline.mem_restRefs_of main_arg21 (by decide) (by decide))).trans
    (W_keep m (dats m) c main_arg21 (by decide) (by decide) (by decide))

/-- No host line writes `main_arg22`, and the region does not stage it. -/
theorem kept_main_arg22 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg22) = m ((c.tc : Thread nD τ).loc main_arg22) :=
  ((h c).2 main_arg22 (Pipeline.mem_restRefs_of main_arg22 (by decide) (by decide))).trans
    (W_keep m (dats m) c main_arg22 (by decide) (by decide) (by decide))

/-- No host line writes `main_arg23`, and the region does not stage it. -/
theorem kept_main_arg23 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg23) = m ((c.tc : Thread nD τ).loc main_arg23) :=
  ((h c).2 main_arg23 (Pipeline.mem_restRefs_of main_arg23 (by decide) (by decide))).trans
    (W_keep m (dats m) c main_arg23 (by decide) (by decide) (by decide))

/-- No host line writes `main_arg24`, and the region does not stage it. -/
theorem kept_main_arg24 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg24) = m ((c.tc : Thread nD τ).loc main_arg24) :=
  ((h c).2 main_arg24 (Pipeline.mem_restRefs_of main_arg24 (by decide) (by decide))).trans
    (W_keep m (dats m) c main_arg24 (by decide) (by decide) (by decide))

/-- No host line writes `main_arg25`, and the region does not stage it. -/
theorem kept_main_arg25 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg25) = m ((c.tc : Thread nD τ).loc main_arg25) :=
  ((h c).2 main_arg25 (Pipeline.mem_restRefs_of main_arg25 (by decide) (by decide))).trans
    (W_keep m (dats m) c main_arg25 (by decide) (by decide) (by decide))

/-- No host line writes `main_arg26`, and the region does not stage it. -/
theorem kept_main_arg26 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg26) = m ((c.tc : Thread nD τ).loc main_arg26) :=
  ((h c).2 main_arg26 (Pipeline.mem_restRefs_of main_arg26 (by decide) (by decide))).trans
    (W_keep m (dats m) c main_arg26 (by decide) (by decide) (by decide))

/-- No host line writes `main_arg27`, and the region does not stage it. -/
theorem kept_main_arg27 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg27) = m ((c.tc : Thread nD τ).loc main_arg27) :=
  ((h c).2 main_arg27 (Pipeline.mem_restRefs_of main_arg27 (by decide) (by decide))).trans
    (W_keep m (dats m) c main_arg27 (by decide) (by decide) (by decide))

/-- No host line writes `main_arg28`, and the region does not stage it. -/
theorem kept_main_arg28 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg28) = m ((c.tc : Thread nD τ).loc main_arg28) :=
  ((h c).2 main_arg28 (Pipeline.mem_restRefs_of main_arg28 (by decide) (by decide))).trans
    (W_keep m (dats m) c main_arg28 (by decide) (by decide) (by decide))

/-- No host line writes `main_arg29`, and the region does not stage it. -/
theorem kept_main_arg29 (c : Dev nD) (r : PUnit × MemSt nD τ sig (Elt F))
    (h : Pipeline.FramePost cfgs (dats m) 0 (Pipeline.afterTail₀ cfgs (dats m) 0 (V0 m) laterLines) r) :
    r.2.mem ((c.tc : Thread nD τ).loc main_arg29) = m ((c.tc : Thread nD τ).loc main_arg29) :=
  ((h c).2 main_arg29 (Pipeline.mem_restRefs_of main_arg29 (by decide) (by decide))).trans
    (W_keep m (dats m) c main_arg29 (by decide) (by decide) (by decide))

/-- The frame: @main runs to the end, faults nowhere, and leaves its thirty argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => ⟨kept_main_arg0 m c r h, kept_main_arg1 m c r h, kept_main_arg2 m c r h, kept_main_arg3 m c r h, kept_main_arg4 m c r h, kept_main_arg5 m c r h, kept_main_arg6 m c r h, kept_main_arg7 m c r h, kept_main_arg8 m c r h, kept_main_arg9 m c r h, kept_main_arg10 m c r h, kept_main_arg11 m c r h, kept_main_arg12 m c r h, kept_main_arg13 m c r h, kept_main_arg14 m c r h, kept_main_arg15 m c r h, kept_main_arg16 m c r h, kept_main_arg17 m c r h, kept_main_arg18 m c r h, kept_main_arg19 m c r h, kept_main_arg20 m c r h, kept_main_arg21 m c r h, kept_main_arg22 m c r h, kept_main_arg23 m c r h, kept_main_arg24 m c r h, kept_main_arg25 m c r h, kept_main_arg26 m c r h, kept_main_arg27 m c r h, kept_main_arg28 m c r h, kept_main_arg29 m c r h⟩) (run_main m ρ)

end Cert.KernelIdeal.Hand

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibProdRows.lean ====
/-
  Two facts about products of rank-2 arrays of extended reals, over generic extents, beside `MatProd.entry` / `mm`.

  First, a dimension-numbers record that contracts the columns of its left operand against the rows of its right
  one (`MatProd.Plain`: one contracted axis of the inner extent, the left operand read at (result row, contracted
  coordinate), the right operand at (contracted coordinate, result column)) makes both spellings of a product the
  array `mm`: the matrix unit's product onto the zero accumulator (`matmul_zero_mm`) and the host's
  dot_general (`dotGeneral_mm`).

  Second, the band law `entry_mm_rows`: if row `p` of a short array `a` is row `r` of a tall array `A`, then
  entry (p, q) of (a * W1) * W2 is entry (r, q) of (A * W1) * W2.  Each entry of a two-fold product depends on one
  row of the leftmost factor only, so a band of rows of the product is the product of the band.  No finiteness is
  used: the two sides are the same sums of the same products.
-/
import proofs.«177343_j24163486008144_1_alg».proof.Proof.LibMatProd

noncomputable section

open scoped BigOperators

namespace MatProd

open Idealize.ShloMosaic Idealize.ShloMosaic.ValueIdx

/-- The record contracts the left operand's columns against the right operand's rows, and nothing else. -/
structure Plain {n k m : ℕ} (d : DotDims (⟨2, ![n, k]⟩ : Shape) (⟨2, ![k, m]⟩ : Shape) (⟨2, ![n, m]⟩ : Shape)) : Prop where
  hr : d.contr.rank = 1
  hs : d.contr.size ⟨0, by omega⟩ = k
  hl0 : ∀ (j : (⟨2, ![n, m]⟩ : Shape).Idx) (c : d.contr.Idx), (d.lhsIdx j c 0).val = (j 0).val
  hl1 : ∀ (j : (⟨2, ![n, m]⟩ : Shape).Idx) (c : d.contr.Idx), (d.lhsIdx j c 1).val = (c ⟨0, by omega⟩).val
  hr0 : ∀ (j : (⟨2, ![n, m]⟩ : Shape).Idx) (c : d.contr.Idx), (d.rhsIdx j c 0).val = (c ⟨0, by omega⟩).val
  hr1 : ∀ (j : (⟨2, ![n, m]⟩ : Shape).Idx) (c : d.contr.Idx), (d.rhsIdx j c 1).val = (j 1).val

/-- The matrix unit's product onto the zero accumulator is the product array. -/
theorem matmul_zero_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (lhs : FVec Ideal (⟨2, ![n, k]⟩ : Shape) φ₁) (rhs : FVec Ideal (⟨2, ![k, m]⟩ : Shape) φ₂) :
    FloatOps.matmul d prec lhs rhs (constant (F := Ideal) (⟨2, ![n, m]⟩ : Shape) .f32 0x00000000#32) = mm lhs rhs := by
  funext i
  obtain ⟨p, q, rfl⟩ : ∃ (p : Fin n) (q : Fin m), i = ix2 p q := ⟨i 0, i 1, eq_ix2 i⟩
  rw [matmul_zero_entry d prec h.hr h.hs h.hl0 h.hl1 h.hr0 h.hr1 lhs rhs p q, mm_ix2]

/-- The host's dot_general at one pair of coordinates is the product's entry. -/
theorem dotGeneral_entry {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) (p : Fin n) (q : Fin m) :
    FloatOps.dotGeneral d prec sched lhs rhs (ix2 p q) = entry lhs rhs p q := by
  rw [Ideal.dotGeneral_apply, ← Equiv.sum_comp (contrEquiv1 d k h.hr h.hs).symm]
  unfold entry
  refine Finset.sum_congr rfl fun l _ => ?_
  have hk := contrEquiv1_symm_val d k h.hr h.hs l
  have el : d.lhsIdx (ix2 p q) ((contrEquiv1 d k h.hr h.hs).symm l) = ix2 p l := funext fun a => Fin.ext (by
    match a with
    | ⟨0, _⟩ => exact h.hl0 _ _
    | ⟨1, _⟩ => exact (h.hl1 _ _).trans hk)
  have er : d.rhsIdx (ix2 p q) ((contrEquiv1 d k h.hr h.hs).symm l) = ix2 l q := funext fun a => Fin.ext (by
    match a with
    | ⟨0, _⟩ => exact (h.hr0 _ _).trans hk
    | ⟨1, _⟩ => exact h.hr1 _ _)
  rw [el, er]

/-- The host's dot_general is the product array. -/
theorem dotGeneral_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) :
    FloatOps.dotGeneral d prec sched lhs rhs = mm lhs rhs := by
  funext i
  obtain ⟨p, q, rfl⟩ : ∃ (p : Fin n) (q : Fin m), i = ix2 p q := ⟨i 0, i 1, eq_ix2 i⟩
  rw [dotGeneral_entry h, mm_ix2]

/-- THE BAND LAW.  If row `p` of `a` is row `r` of `A`, entry (p, q) of (a * W1) * W2 is entry (r, q) of (A * W1) * W2. -/
theorem entry_mm_rows {N n k h m : ℕ} (A : (⟨2, ![N, k]⟩ : Shape).Idx → EReal) (a : (⟨2, ![n, k]⟩ : Shape).Idx → EReal)
    (W1 : (⟨2, ![k, h]⟩ : Shape).Idx → EReal) (W2 : (⟨2, ![h, m]⟩ : Shape).Idx → EReal) (p : Fin n) (r : Fin N)
    (hrow : ∀ l, a (ix2 p l) = A (ix2 r l)) (q : Fin m) :
    entry (mm a W1) W2 p q = entry (mm A W1) W2 r q := by
  unfold entry
  refine Finset.sum_congr rfl fun x _ => ?_
  rw [mm_ix2, mm_ix2]
  unfold entry
  rw [Finset.sum_congr rfl fun l _ => by rw [hrow l]]

end MatProd

end
-- ==== Proof.EdgeValue.lean ====
/-
  What the edge-MLP region computes, as whole arrays, at the exact extended reals.

  At the ideal instance a change of float format is the identity and a matrix unit's product onto the zero
  accumulator is the plain sum of products, so each payload is the product array (a * W1) * W2 of its three
  loaded blocks.  The feature windows' block at point t is rows 10000 t … 10000 t + 9999 of the feature array
  (all of its columns), the weight windows' block is the whole matrix, and the output windows' block is the same
  band of rows of the output.  Each entry of a two-fold product reads one row of the leftmost factor only, so
  what point t writes back is that band of (A * W1) * W2 for the whole feature array A; the hundred bands cover
  the million rows; hence after the run the two output arrays are (feature1 * f1_w1) * f1_w2 and
  (feature2 * f2_w1) * f2_w2 of the arrays as launched.
-/
import proofs.«177343_j24163486008144_1_alg».proof.Proof.EdgeRegionIdeal
import proofs.«177343_j24163486008144_1_alg».proof.Proof.LibProdRows
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open MatProd

variable (m : (ℓ : Loc nD τ sig) → Buf (Elt Ideal) ℓ) (ρ : Dev nD → PrngReg)

/-! ## The body's three dimension records contract columns against rows -/

theorem plain_f1_first : Plain dot_S10000x147_S147x64_S10000x64_1_0_0_1_n_n := ⟨rfl, rfl, fun _ _ => rfl, fun j c => DotDims.lhsIdx_val_of_single _ (cl := 1) rfl j c, fun j c => DotDims.rhsIdx_val_of_single _ (cr := 0) rfl j c, fun _ _ => rfl⟩
theorem plain_f2_first : Plain dot_S10000x21_S21x64_S10000x64_1_0_0_1_n_n := ⟨rfl, rfl, fun _ _ => rfl, fun j c => DotDims.lhsIdx_val_of_single _ (cl := 1) rfl j c, fun j c => DotDims.rhsIdx_val_of_single _ (cr := 0) rfl j c, fun _ _ => rfl⟩
theorem plain_second : Plain dot_S10000x64_S64x128_S10000x128_1_0_0_1_n_n := ⟨rfl, rfl, fun _ _ => rfl, fun j c => DotDims.lhsIdx_val_of_single _ (cl := 1) rfl j c, fun j c => DotDims.rhsIdx_val_of_single _ (cr := 0) rfl j c, fun _ _ => rfl⟩

/-! ## Each payload is a two-fold product array -/

theorem k0_pay1_eq (a : Vec Ideal S10000x147 .f32) (w1 : Vec Ideal S147x64 .f32) (w2 : Vec Ideal S64x128 .f32) :
    k0_pay1 (F := Ideal) a w1 w2 = mm (mm a w1) w2 := by
  unfold k0_pay1
  show FloatOps.matmul (F := Ideal) (φ₁ := .bf16) (φ₂ := .bf16) dot_S10000x64_S64x128_S10000x128_1_0_0_1_n_n none
      (FloatOps.matmul (F := Ideal) (φ₁ := .bf16) (φ₂ := .bf16) dot_S10000x147_S147x64_S10000x64_1_0_0_1_n_n none a w1 (constant (F := Ideal) S10000x64 .f32 0x00000000#32))
      w2 (constant (F := Ideal) S10000x128 .f32 0x00000000#32) = _
  rw [matmul_zero_mm plain_f1_first, matmul_zero_mm plain_second]

theorem k0_pay2_eq (a : Vec Ideal S10000x21 .f32) (w1 : Vec Ideal S21x64 .f32) (w2 : Vec Ideal S64x128 .f32) :
    k0_pay2 (F := Ideal) a w1 w2 = mm (mm a w1) w2 := by
  unfold k0_pay2
  show FloatOps.matmul (F := Ideal) (φ₁ := .bf16) (φ₂ := .bf16) dot_S10000x64_S64x128_S10000x128_1_0_0_1_n_n none
      (FloatOps.matmul (F := Ideal) (φ₁ := .bf16) (φ₂ := .bf16) dot_S10000x21_S21x64_S10000x64_1_0_0_1_n_n none a w1 (constant (F := Ideal) S10000x64 .f32 0x00000000#32))
      w2 (constant (F := Ideal) S10000x128 .f32 0x00000000#32) = _
  rw [matmul_zero_mm plain_f2_first, matmul_zero_mm plain_second]

/-! ## The index maps, decided over the hundred points -/

/-- The feature and output windows' block index is (t, 0); the weight windows' is (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 100 := lt_of_lt_of_eq t.isLt N_0

theorem hz : (![0, 0] : Fin 2 → Nat) = fun _ => 0 := funext fun a => by fin_cases a <;> rfl

/-! ## The blocks, read off the arrays -/

/-- Row `p` of feature window 0's block at point `t` is row 10000 t + p of its array. -/
theorem read0_row (c : Dev nD) (A : Buf (Elt Ideal) ((c : Thread nD τ).loc main_arg1)) (t : Fin cfg0.N) (p : Fin 10000) (l : Fin 147) :
    ((cfg0.win 0).blk t).view.read (Elt Ideal) A (ix2 p l) = A (ix2 ⟨t.val * 10000 + p.val, by have := point_lt t; omega⟩ l) := by
  rw [View.read_apply]
  refine congrArg A ?_
  funext a; apply Fin.ext
  obtain ⟨e00, e01, e10, e11, e20, e21, e30, e31, e40, e41, e50, e51, e60, e61, e70, e71⟩ := idx_facts t
  match a with
  | ⟨0, _⟩ => show win0_0.index t (0 : Fin 2) * 10000 + 1 * p.val = t.val * 10000 + p.val; omega
  | ⟨1, _⟩ => show win0_0.index t (1 : Fin 2) * 147 + 1 * l.val = l.val; omega

theorem iblk0_row (c : Dev nD) (t : Fin cfg0.N) (p : Fin 10000) (l : Fin 147) :
    iblk m c 0 t (ix2 p l) = V m c main_arg1 (ix2 ⟨t.val * 10000 + p.val, by have := point_lt t; omega⟩ l) := by
  unfold iblk
  exact read0_row c _ t p l

/-- Row `p` of feature window 1's block at point `t` is row 10000 t + p of its array. -/
theorem read1_row (c : Dev nD) (A : Buf (Elt Ideal) ((c : Thread nD τ).loc main_arg2)) (t : Fin cfg0.N) (p : Fin 10000) (l : Fin 21) :
    ((cfg0.win 1).blk t).view.read (Elt Ideal) A (ix2 p l) = A (ix2 ⟨t.val * 10000 + p.val, by have := point_lt t; omega⟩ l) := by
  rw [View.read_apply]
  refine congrArg A ?_
  funext a; apply Fin.ext
  obtain ⟨e00, e01, e10, e11, e20, e21, e30, e31, e40, e41, e50, e51, e60, e61, e70, e71⟩ := idx_facts t
  match a with
  | ⟨0, _⟩ => show win0_1.index t (0 : Fin 2) * 10000 + 1 * p.val = t.val * 10000 + p.val; omega
  | ⟨1, _⟩ => show win0_1.index t (1 : Fin 2) * 21 + 1 * l.val = l.val; omega

theorem iblk1_row (c : Dev nD) (t : Fin cfg0.N) (p : Fin 10000) (l : Fin 21) :
    iblk m c 1 t (ix2 p l) = V m c main_arg2 (ix2 ⟨t.val * 10000 + p.val, by have := point_lt t; omega⟩ l) := by
  unfold iblk
  exact read1_row c _ t p l

/-- Window 2 stages the whole of its array at every point. -/
theorem read2_whole (c : Dev nD) (A : Buf (Elt Ideal) ((c : Thread nD τ).loc main_arg7)) (t : Fin cfg0.N) :
    ((cfg0.win 2).blk t).view.read (Elt Ideal) A = A := by
  funext y
  rw [View.read_apply]
  refine congrArg A ?_
  funext a; apply Fin.ext
  obtain ⟨e00, e01, e10, e11, e20, e21, e30, e31, e40, e41, e50, e51, e60, e61, e70, e71⟩ := idx_facts t
  match a with
  | ⟨0, _⟩ => show win0_2.index t (0 : Fin 2) * 147 + 1 * (y 0).val = (y 0).val; omega
  | ⟨1, _⟩ => show win0_2.index t (1 : Fin 2) * 64 + 1 * (y 1).val = (y 1).val; omega

theorem iblk2_eq (c : Dev nD) (t : Fin cfg0.N) : iblk m c 2 t = V m c main_arg7 := by
  unfold iblk
  exact read2_whole c _ t

/-- Window 3 stages the whole of its array at every point. -/
theorem read3_whole (c : Dev nD) (A : Buf (Elt Ideal) ((c : Thread nD τ).loc main_arg8)) (t : Fin cfg0.N) :
    ((cfg0.win 3).blk t).view.read (Elt Ideal) A = A := by
  funext y
  rw [View.read_apply]
  refine congrArg A ?_
  funext a; apply Fin.ext
  obtain ⟨e00, e01, e10, e11, e20, e21, e30, e31, e40, e41, e50, e51, e60, e61, e70, e71⟩ := idx_facts t
  match a with
  | ⟨0, _⟩ => show win0_3.index t (0 : Fin 2) * 64 + 1 * (y 0).val = (y 0).val; omega
  | ⟨1, _⟩ => show win0_3.index t (1 : Fin 2) * 128 + 1 * (y 1).val = (y 1).val; omega

theorem iblk3_eq (c : Dev nD) (t : Fin cfg0.N) : iblk m c 3 t = V m c main_arg8 := by
  unfold iblk
  exact read3_whole c _ t

/-- Window 4 stages the whole of its array at every point. -/
theorem read4_whole (c : Dev nD) (A : Buf (Elt Ideal) ((c : Thread nD τ).loc main_arg9)) (t : Fin cfg0.N) :
    ((cfg0.win 4).blk t).view.read (Elt Ideal) A = A := by
  funext y
  rw [View.read_apply]
  refine congrArg A ?_
  funext a; apply Fin.ext
  obtain ⟨e00, e01, e10, e11, e20, e21, e30, e31, e40, e41, e50, e51, e60, e61, e70, e71⟩ := idx_facts t
  match a with
  | ⟨0, _⟩ => show win0_4.index t (0 : Fin 2) * 21 + 1 * (y 0).val = (y 0).val; omega
  | ⟨1, _⟩ => show win0_4.index t (1 : Fin 2) * 64 + 1 * (y 1).val = (y 1).val; omega

theorem iblk4_eq (c : Dev nD) (t : Fin cfg0.N) : iblk m c 4 t = V m c main_arg9 := by
  unfold iblk
  exact read4_whole c _ t

/-- Window 5 stages the whole of its array at every point. -/
theorem read5_whole (c : Dev nD) (A : Buf (Elt Ideal) ((c : Thread nD τ).loc main_arg10)) (t : Fin cfg0.N) :
    ((cfg0.win 5).blk t).view.read (Elt Ideal) A = A := by
  funext y
  rw [View.read_apply]
  refine congrArg A ?_
  funext a; apply Fin.ext
  obtain ⟨e00, e01, e10, e11, e20, e21, e30, e31, e40, e41, e50, e51, e60, e61, e70, e71⟩ := idx_facts t
  match a with
  | ⟨0, _⟩ => show win0_5.index t (0 : Fin 2) * 64 + 1 * (y 0).val = (y 0).val; omega
  | ⟨1, _⟩ => show win0_5.index t (1 : Fin 2) * 128 + 1 * (y 1).val = (y 1).val; omega

theorem iblk5_eq (c : Dev nD) (t : Fin cfg0.N) : iblk m c 5 t = V m c main_arg10 := by
  unfold iblk
  exact read5_whole c _ t

/-! ## Output window 6 -/

/-- Entry (p, q) of output window 6's block at point `t` sits at row 10000 t + p, column q of its array. -/
theorem emb6 (t : Fin cfg0.N) (p : Fin 10000) (q : Fin 128) :
    ((cfg0.win 6).blk t).view.emb (ix2 p q) = ix2 ⟨t.val * 10000 + p.val, by have := point_lt t; omega⟩ q := by
  funext a; apply Fin.ext
  obtain ⟨e00, e01, e10, e11, e20, e21, e30, e31, e40, e41, e50, e51, e60, e61, e70, e71⟩ := idx_facts t
  match a with
  | ⟨0, _⟩ => show win0_6.index t (0 : Fin 2) * 10000 + 1 * p.val = t.val * 10000 + p.val; omega
  | ⟨1, _⟩ => show win0_6.index t (1 : Fin 2) * 128 + 1 * q.val = q.val; omega

/-- WHAT POINT `t` WRITES BACK is its band of rows of the two-fold product of the whole arrays. -/
theorem flushed6_eq (c : Dev nD) (t : Fin cfg0.N) :
    (dats m 0 c).flushed 6 t = ((cfg0.win 6).blk t).view.read (Elt Ideal)
      (mm (mm (V m c main_arg1) (V m c main_arg7)) (V m c main_arg8)) := by
  show (cfg0.win 6).cut (grid0.coords t) ((dats m 0 c).after 6 t) = _
  rw [after6]
  unfold outF1
  rw [View.canon_unit_zero hz]
  simp only [View.ld_unit_zero (S := S10000x147) hz, View.ld_unit_zero (S := S147x64) hz, View.ld_unit_zero (S := S64x128) hz]
  rw [k0_pay1_eq, iblk2_eq, iblk3_eq]
  funext j
  obtain ⟨p, q, rfl⟩ : ∃ (p : Fin 10000) (q : Fin 128), j = ix2 p q := ⟨j 0, j 1, eq_ix2 j⟩
  show mm (mm (iblk m c 0 t) (V m c main_arg7)) (V m c main_arg8) (ix2 p q)
    = mm (mm (V m c main_arg1) (V m c main_arg7)) (V m c main_arg8) (((cfg0.win 6).blk t).view.emb (ix2 p q))
  rw [emb6, mm_ix2, mm_ix2]
  exact entry_mm_rows _ _ _ _ p _ (fun l => iblk0_row m c t p l) q

/-- An index of the output array is in point `t`'s block iff each coordinate is in the block's range. -/
theorem mem_blk6 (t : Fin cfg0.N) (i : S1000000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v15_0).slice (win0_6.rect t)).set ↔ _
  rw [View.set_slice_whole, Rect.mem_set_unit]
  exact Iff.rfl

/-- Row r of the output is in the block of point r / 10000: the hundred bands cover the array. -/
theorem cover6 (i : S1000000x128.Idx) :
    ∃ t : Fin cfg0.N, (cfg0.win 6).flush t = true ∧ i ∈ ((cfg0.win 6).blk t).view.set := by
  have hi0 : (i 0).val < 1000000 := (i 0).isLt
  have hi1 : (i 1).val < 128 := (i 1).isLt
  have hN : (i 0).val / 10000 < cfg0.N := by rw [show cfg0.N = 100 from N_0]; omega
  refine ⟨⟨(i 0).val / 10000, hN⟩, flush0_6 _, ?_⟩
  obtain ⟨e00, e01, e10, e11, e20, e21, e30, e31, e40, e41, e50, e51, e60, e61, e70, e71⟩ := idx_facts ⟨(i 0).val / 10000, hN⟩
  rw [mem_blk6]
  intro a
  match a with
  | ⟨0, _⟩ =>
    show win0_6.index ⟨(i 0).val / 10000, hN⟩ (0 : Fin 2) * 10000 ≤ (i 0).val ∧ (i 0).val < win0_6.index ⟨(i 0).val / 10000, hN⟩ (0 : Fin 2) * 10000 + 10000
    rw [e60]
    show (i 0).val / 10000 * 10000 ≤ (i 0).val ∧ (i 0).val < (i 0).val / 10000 * 10000 + 10000
    omega
  | ⟨1, _⟩ =>
    show win0_6.index ⟨(i 0).val / 10000, hN⟩ (1 : Fin 2) * 128 ≤ (i 1).val ∧ (i 1).val < win0_6.index ⟨(i 0).val / 10000, hN⟩ (1 : Fin 2) * 128 + 128
    omega

/-- THE ARRAY after the run: the two-fold product of the arrays as launched. -/
theorem final6 (c : Dev nD) : (dats m 0 c).arrAt 6 cfg0.N
    = mm (mm (m ((c : Thread nD τ).loc main_arg1)) (m ((c : Thread nD τ).loc main_arg7))) (m ((c : Thread nD τ).loc main_arg8)) := by
  rw [(dats m 0 c).arrAt_eq_of_cover 6 _ (fun t _ => flushed6_eq m c t) cover6,
    V_keep m c main_arg1 (by decide), V_keep m c main_arg7 (by decide), V_keep m c main_arg8 (by decide)]

/-! ## Output window 7 -/

/-- Entry (p, q) of output window 7's block at point `t` sits at row 10000 t + p, column q of its array. -/
theorem emb7 (t : Fin cfg0.N) (p : Fin 10000) (q : Fin 128) :
    ((cfg0.win 7).blk t).view.emb (ix2 p q) = ix2 ⟨t.val * 10000 + p.val, by have := point_lt t; omega⟩ q := by
  funext a; apply Fin.ext
  obtain ⟨e00, e01, e10, e11, e20, e21, e30, e31, e40, e41, e50, e51, e60, e61, e70, e71⟩ := idx_facts t
  match a with
  | ⟨0, _⟩ => show win0_7.index t (0 : Fin 2) * 10000 + 1 * p.val = t.val * 10000 + p.val; omega
  | ⟨1, _⟩ => show win0_7.index t (1 : Fin 2) * 128 + 1 * q.val = q.val; omega

/-- WHAT POINT `t` WRITES BACK is its band of rows of the two-fold product of the whole arrays. -/
theorem flushed7_eq (c : Dev nD) (t : Fin cfg0.N) :
    (dats m 0 c).flushed 7 t = ((cfg0.win 7).blk t).view.read (Elt Ideal)
      (mm (mm (V m c main_arg2) (V m c main_arg9)) (V m c main_arg10)) := by
  show (cfg0.win 7).cut (grid0.coords t) ((dats m 0 c).after 7 t) = _
  rw [after7]
  unfold outF2
  rw [View.canon_unit_zero hz]
  simp only [View.ld_unit_zero (S := S10000x21) hz, View.ld_unit_zero (S := S21x64) hz, View.ld_unit_zero (S := S64x128) hz]
  rw [k0_pay2_eq, iblk4_eq, iblk5_eq]
  funext j
  obtain ⟨p, q, rfl⟩ : ∃ (p : Fin 10000) (q : Fin 128), j = ix2 p q := ⟨j 0, j 1, eq_ix2 j⟩
  show mm (mm (iblk m c 1 t) (V m c main_arg9)) (V m c main_arg10) (ix2 p q)
    = mm (mm (V m c main_arg2) (V m c main_arg9)) (V m c main_arg10) (((cfg0.win 7).blk t).view.emb (ix2 p q))
  rw [emb7, mm_ix2, mm_ix2]
  exact entry_mm_rows _ _ _ _ p _ (fun l => iblk1_row m c t p l) q

/-- An index of the output array is in point `t`'s block iff each coordinate is in the block's range. -/
theorem mem_blk7 (t : Fin cfg0.N) (i : S1000000x128.Idx) :
    i ∈ ((cfg0.win 7).blk t).view.set ↔ ∀ a : Fin 2, win0_7.index t a * S10000x128.size a ≤ (i a).val ∧ (i a).val < win0_7.index t a * S10000x128.size a + S10000x128.size a := by
  show i ∈ ((View.whole main_v15_1).slice (win0_7.rect t)).set ↔ _
  rw [View.set_slice_whole, Rect.mem_set_unit]
  exact Iff.rfl

/-- Row r of the output is in the block of point r / 10000: the hundred bands cover the array. -/
theorem cover7 (i : S1000000x128.Idx) :
    ∃ t : Fin cfg0.N, (cfg0.win 7).flush t = true ∧ i ∈ ((cfg0.win 7).blk t).view.set := by
  have hi0 : (i 0).val < 1000000 := (i 0).isLt
  have hi1 : (i 1).val < 128 := (i 1).isLt
  have hN : (i 0).val / 10000 < cfg0.N := by rw [show cfg0.N = 100 from N_0]; omega
  refine ⟨⟨(i 0).val / 10000, hN⟩, flush0_7 _, ?_⟩
  obtain ⟨e00, e01, e10, e11, e20, e21, e30, e31, e40, e41, e50, e51, e60, e61, e70, e71⟩ := idx_facts ⟨(i 0).val / 10000, hN⟩
  rw [mem_blk7]
  intro a
  match a with
  | ⟨0, _⟩ =>
    show win0_7.index ⟨(i 0).val / 10000, hN⟩ (0 : Fin 2) * 10000 ≤ (i 0).val ∧ (i 0).val < win0_7.index ⟨(i 0).val / 10000, hN⟩ (0 : Fin 2) * 10000 + 10000
    rw [e70]
    show (i 0).val / 10000 * 10000 ≤ (i 0).val ∧ (i 0).val < (i 0).val / 10000 * 10000 + 10000
    omega
  | ⟨1, _⟩ =>
    show win0_7.index ⟨(i 0).val / 10000, hN⟩ (1 : Fin 2) * 128 ≤ (i 1).val ∧ (i 1).val < win0_7.index ⟨(i 0).val / 10000, hN⟩ (1 : Fin 2) * 128 + 128
    omega

/-- THE ARRAY after the run: the two-fold product of the arrays as launched. -/
theorem final7 (c : Dev nD) : (dats m 0 c).arrAt 7 cfg0.N
    = mm (mm (m ((c : Thread nD τ).loc main_arg2)) (m ((c : Thread nD τ).loc main_arg9))) (m ((c : Thread nD τ).loc main_arg10)) := by
  rw [(dats m 0 c).arrAt_eq_of_cover 7 _ (fun t _ => flushed7_eq m c t) cover7,
    V_keep m c main_arg2 (by decide), V_keep m c main_arg9 (by decide), V_keep m c main_arg10 (by decide)]

end Cert.KernelIdeal.Hand

end
-- ==== Proof.EdgeAgree.lean ====
/-
  The two programs are run from memories that hold the same thirty argument arrays.  `Agrees` says so for one
  core of the kernel's memory and one contents of the reference's buffers, argument by argument.
-/
import proofs.«177343_j24163486008144_1_alg».proof.Proof.EdgeValue
import proofs.«177343_j24163486008144_1_alg».proof.Proof.Gen.ReferenceIdeal.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)
open MatProd

variable (m : (ℓ : Loc nD τ sig) → Buf (Elt Ideal) ℓ) (c : Dev nD)
variable (VR : Valuation Cert.ReferenceIdeal.τ Cert.ReferenceIdeal.sig (Elt Ideal))

set_option maxHeartbeats 16000000 in
/-- The reference's contents `VR` hold, at each of its thirty argument buffers, what the kernel's memory
    holds at the corresponding argument array on core `c`. -/
structure Agrees : Prop where
  a0 : VR (Proc.devRef .tc Cert.ReferenceIdeal.main_arg0) = m ((c : Thread nD τ).loc main_arg0)
  a1 : VR (Proc.devRef .tc Cert.ReferenceIdeal.main_arg1) = m ((c : Thread nD τ).loc main_arg1)
  a2 : VR (Proc.devRef .tc Cert.ReferenceIdeal.main_arg2) = m ((c : Thread nD τ).loc main_arg2)
  a3 : VR (Proc.devRef .tc Cert.ReferenceIdeal.main_arg3) = m ((c : Thread nD τ).loc main_arg3)
  a4 : VR (Proc.devRef .tc Cert.ReferenceIdeal.main_arg4) = m ((c : Thread nD τ).loc main_arg4)
  a5 : VR (Proc.devRef .tc Cert.ReferenceIdeal.main_arg5) = m ((c : Thread nD τ).loc main_arg5)
  a6 : VR (Proc.devRef .tc Cert.ReferenceIdeal.main_arg6) = m ((c : Thread nD τ).loc main_arg6)
  a7 : VR (Proc.devRef .tc Cert.ReferenceIdeal.main_arg7) = m ((c : Thread nD τ).loc main_arg7)
  a8 : VR (Proc.devRef .tc Cert.ReferenceIdeal.main_arg8) = m ((c : Thread nD τ).loc main_arg8)
  a9 : VR (Proc.devRef .tc Cert.ReferenceIdeal.main_arg9) = m ((c : Thread nD τ).loc main_arg9)
  a10 : VR (Proc.devRef .tc Cert.ReferenceIdeal.main_arg10) = m ((c : Thread nD τ).loc main_arg10)
  a11 : VR (Proc.devRef .tc Cert.ReferenceIdeal.main_arg11) = m ((c : Thread nD τ).loc main_arg11)
  a12 : VR (Proc.devRef .tc Cert.ReferenceIdeal.main_arg12) = m ((c : Thread nD τ).loc main_arg12)
  a13 : VR (Proc.devRef .tc Cert.ReferenceIdeal.main_arg13) = m ((c : Thread nD τ).loc main_arg13)
  a14 : VR (Proc.devRef .tc Cert.ReferenceIdeal.main_arg14) = m ((c : Thread nD τ).loc main_arg14)
  a15 : VR (Proc.devRef .tc Cert.ReferenceIdeal.main_arg15) = m ((c : Thread nD τ).loc main_arg15)
  a16 : VR (Proc.devRef .tc Cert.ReferenceIdeal.main_arg16) = m ((c : Thread nD τ).loc main_arg16)
  a17 : VR (Proc.devRef .tc Cert.ReferenceIdeal.main_arg17) = m ((c : Thread nD τ).loc main_arg17)
  a18 : VR (Proc.devRef .tc Cert.ReferenceIdeal.main_arg18) = m ((c : Thread nD τ).loc main_arg18)
  a19 : VR (Proc.devRef .tc Cert.ReferenceIdeal.main_arg19) = m ((c : Thread nD τ).loc main_arg19)
  a20 : VR (Proc.devRef .tc Cert.ReferenceIdeal.main_arg20) = m ((c : Thread nD τ).loc main_arg20)
  a21 : VR (Proc.devRef .tc Cert.ReferenceIdeal.main_arg21) = m ((c : Thread nD τ).loc main_arg21)
  a22 : VR (Proc.devRef .tc Cert.ReferenceIdeal.main_arg22) = m ((c : Thread nD τ).loc main_arg22)
  a23 : VR (Proc.devRef .tc Cert.ReferenceIdeal.main_arg23) = m ((c : Thread nD τ).loc main_arg23)
  a24 : VR (Proc.devRef .tc Cert.ReferenceIdeal.main_arg24) = m ((c : Thread nD τ).loc main_arg24)
  a25 : VR (Proc.devRef .tc Cert.ReferenceIdeal.main_arg25) = m ((c : Thread nD τ).loc main_arg25)
  a26 : VR (Proc.devRef .tc Cert.ReferenceIdeal.main_arg26) = m ((c : Thread nD τ).loc main_arg26)
  a27 : VR (Proc.devRef .tc Cert.ReferenceIdeal.main_arg27) = m ((c : Thread nD τ).loc main_arg27)
  a28 : VR (Proc.devRef .tc Cert.ReferenceIdeal.main_arg28) = m ((c : Thread nD τ).loc main_arg28)
  a29 : VR (Proc.devRef .tc Cert.ReferenceIdeal.main_arg29) = m ((c : Thread nD τ).loc main_arg29)

end Cert.KernelIdeal.Hand

end
-- ==== Proof.EdgeEntry.lean ====
/-
  The contents the later host lines start from, in the reference's terms.

  When the region exits, the buffers the later lines read hold: the argument arrays as launched; the edge
  sources and targets and xh, which the seventeen earlier lines computed exactly as the reference's first
  lines do; and the region's two arrays, which are the reference's two-fold host products, because at the
  exact extended reals the host's dot_general and the matrix unit's product onto zero are one array of sums.
-/
import proofs.«177343_j24163486008144_1_alg».proof.Proof.EdgeAgree

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)
open MatProd

variable (m : (ℓ : Loc nD τ sig) → Buf (Elt Ideal) ℓ) (c : Dev nD)
variable (VR : Valuation Cert.ReferenceIdeal.τ Cert.ReferenceIdeal.sig (Elt Ideal))

/-! ## The reference's records of the edge products contract columns against rows -/

theorem plainR_f1_first : Plain Cert.ReferenceIdeal.dot_S1000000x147_S147x64_S1000000x64_1_0_0_1_n_n := ⟨rfl, rfl, fun _ _ => rfl, fun j c => DotDims.lhsIdx_val_of_single _ (cl := 1) rfl j c, fun j c => DotDims.rhsIdx_val_of_single _ (cr := 0) rfl j c, fun _ _ => rfl⟩
theorem plainR_f2_first : Plain Cert.ReferenceIdeal.dot_S1000000x21_S21x64_S1000000x64_1_0_0_1_n_n := ⟨rfl, rfl, fun _ _ => rfl, fun j c => DotDims.lhsIdx_val_of_single _ (cl := 1) rfl j c, fun j c => DotDims.rhsIdx_val_of_single _ (cr := 0) rfl j c, fun _ _ => rfl⟩
theorem plainR_second : Plain Cert.ReferenceIdeal.dot_S1000000x64_S64x128_S1000000x128_1_0_0_1_n_n := ⟨rfl, rfl, fun _ _ => rfl, fun j c => DotDims.lhsIdx_val_of_single _ (cl := 1) rfl j c, fun j c => DotDims.rhsIdx_val_of_single _ (cr := 0) rfl j c, fun _ _ => rfl⟩

/-! ## The contents the later lines start from -/

/-- What the later lines find: the region's eight arrays as the region leaves them, every other buffer as the
    region found it. -/
def X : Valuation τ sig (Elt Ideal) :=
  Pipeline.withArrays spec0 c (V0 m c) fun w => (dats m 0 c).arrAt w cfg0.N

/-- A buffer the region does not stage and no earlier line writes holds its launch contents. -/
theorem X_launch (r : Ref sig .tc) (ha : ∀ w, Pipeline.arrRef spec0 w ≠ r) (h0 : r ∉ earlierResults) :
    X m c (Proc.devRef .tc r) = m ((c : Thread nD τ).loc r) := by
  unfold X
  rw [Pipeline.withArrays_of_ne _ c (V0 m c) _ r ha]
  exact V_keep m c r h0

/-- A result of an earlier line is as the earlier lines left it. -/
theorem X_earlier (r : Ref sig .tc) (ha : ∀ w, Pipeline.arrRef spec0 w ≠ r) :
    X m c (Proc.devRef .tc r) = V0 m c (Proc.devRef .tc r) := by
  unfold X
  exact Pipeline.withArrays_of_ne _ c (V0 m c) _ r ha

theorem X_arg4 (hag : Agrees m c VR) : X m c (no_index (Proc.devRef .tc main_arg4)) = VR (Proc.devRef .tc Cert.ReferenceIdeal.main_arg4) :=
  (X_launch m c main_arg4 (by decide) (by decide)).trans hag.a4.symm
theorem X_arg11 (hag : Agrees m c VR) : X m c (no_index (Proc.devRef .tc main_arg11)) = VR (Proc.devRef .tc Cert.ReferenceIdeal.main_arg11) :=
  (X_launch m c main_arg11 (by decide) (by decide)).trans hag.a11.symm
theorem X_arg12 (hag : Agrees m c VR) : X m c (no_index (Proc.devRef .tc main_arg12)) = VR (Proc.devRef .tc Cert.ReferenceIdeal.main_arg12) :=
  (X_launch m c main_arg12 (by decide) (by decide)).trans hag.a12.symm
theorem X_arg13 (hag : Agrees m c VR) : X m c (no_index (Proc.devRef .tc main_arg13)) = VR (Proc.devRef .tc Cert.ReferenceIdeal.main_arg13) :=
  (X_launch m c main_arg13 (by decide) (by decide)).trans hag.a13.symm
theorem X_arg14 (hag : Agrees m c VR) : X m c (no_index (Proc.devRef .tc main_arg14)) = VR (Proc.devRef .tc Cert.ReferenceIdeal.main_arg14) :=
  (X_launch m c main_arg14 (by decide) (by decide)).trans hag.a14.symm
theorem X_arg15 (hag : Agrees m c VR) : X m c (no_index (Proc.devRef .tc main_arg15)) = VR (Proc.devRef .tc Cert.ReferenceIdeal.main_arg15) :=
  (X_launch m c main_arg15 (by decide) (by decide)).trans hag.a15.symm
theorem X_arg16 (hag : Agrees m c VR) : X m c (no_index (Proc.devRef .tc main_arg16)) = VR (Proc.devRef .tc Cert.ReferenceIdeal.main_arg16) :=
  (X_launch m c main_arg16 (by decide) (by decide)).trans hag.a16.symm
theorem X_arg17 (hag : Agrees m c VR) : X m c (no_index (Proc.devRef .tc main_arg17)) = VR (Proc.devRef .tc Cert.ReferenceIdeal.main_arg17) :=
  (X_launch m c main_arg17 (by decide) (by decide)).trans hag.a17.symm
theorem X_arg18 (hag : Agrees m c VR) : X m c (no_index (Proc.devRef .tc main_arg18)) = VR (Proc.devRef .tc Cert.ReferenceIdeal.main_arg18) :=
  (X_launch m c main_arg18 (by decide) (by decide)).trans hag.a18.symm
theorem X_arg19 (hag : Agrees m c VR) : X m c (no_index (Proc.devRef .tc main_arg19)) = VR (Proc.devRef .tc Cert.ReferenceIdeal.main_arg19) :=
  (X_launch m c main_arg19 (by decide) (by decide)).trans hag.a19.symm
theorem X_arg20 (hag : Agrees m c VR) : X m c (no_index (Proc.devRef .tc main_arg20)) = VR (Proc.devRef .tc Cert.ReferenceIdeal.main_arg20) :=
  (X_launch m c main_arg20 (by decide) (by decide)).trans hag.a20.symm
theorem X_arg21 (hag : Agrees m c VR) : X m c (no_index (Proc.devRef .tc main_arg21)) = VR (Proc.devRef .tc Cert.ReferenceIdeal.main_arg21) :=
  (X_launch m c main_arg21 (by decide) (by decide)).trans hag.a21.symm
theorem X_arg22 (hag : Agrees m c VR) : X m c (no_index (Proc.devRef .tc main_arg22)) = VR (Proc.devRef .tc Cert.ReferenceIdeal.main_arg22) :=
  (X_launch m c main_arg22 (by decide) (by decide)).trans hag.a22.symm
theorem X_arg23 (hag : Agrees m c VR) : X m c (no_index (Proc.devRef .tc main_arg23)) = VR (Proc.devRef .tc Cert.ReferenceIdeal.main_arg23) :=
  (X_launch m c main_arg23 (by decide) (by decide)).trans hag.a23.symm
theorem X_arg24 (hag : Agrees m c VR) : X m c (no_index (Proc.devRef .tc main_arg24)) = VR (Proc.devRef .tc Cert.ReferenceIdeal.main_arg24) :=
  (X_launch m c main_arg24 (by decide) (by decide)).trans hag.a24.symm
theorem X_arg25 (hag : Agrees m c VR) : X m c (no_index (Proc.devRef .tc main_arg25)) = VR (Proc.devRef .tc Cert.ReferenceIdeal.main_arg25) :=
  (X_launch m c main_arg25 (by decide) (by decide)).trans hag.a25.symm
theorem X_arg26 (hag : Agrees m c VR) : X m c (no_index (Proc.devRef .tc main_arg26)) = VR (Proc.devRef .tc Cert.ReferenceIdeal.main_arg26) :=
  (X_launch m c main_arg26 (by decide) (by decide)).trans hag.a26.symm
theorem X_arg27 (hag : Agrees m c VR) : X m c (no_index (Proc.devRef .tc main_arg27)) = VR (Proc.devRef .tc Cert.ReferenceIdeal.main_arg27) :=
  (X_launch m c main_arg27 (by decide) (by decide)).trans hag.a27.symm
theorem X_arg28 (hag : Agrees m c VR) : X m c (no_index (Proc.devRef .tc main_arg28)) = VR (Proc.devRef .tc Cert.ReferenceIdeal.main_arg28) :=
  (X_launch m c main_arg28 (by decide) (by decide)).trans hag.a28.symm
theorem X_arg29 (hag : Agrees m c VR) : X m c (no_index (Proc.devRef .tc main_arg29)) = VR (Proc.devRef .tc Cert.ReferenceIdeal.main_arg29) :=
  (X_launch m c main_arg29 (by decide) (by decide)).trans hag.a29.symm

set_option maxHeartbeats 2000000 in
/-- xh, the swish of x * lin_w + lin_b, is the reference's. -/
theorem X_v14 (hag : Agrees m c VR) : X m c (no_index (Proc.devRef .tc main_v14)) = Cert.ReferenceIdeal.Value.res_main_v14 VR := by
  refine (X_earlier m c main_v14 (by decide)).trans ?_
  show StableHlo.after (List.flatten [main_part0_ops0]) (fun b => m (c, b)) (Proc.devRef .tc main_v14) = _
  simp only [List.flatten_cons, List.flatten_nil, List.append_nil, main_part0_ops0]
  after_results_simp
  unfold Cert.ReferenceIdeal.Value.res_main_v14 Cert.ReferenceIdeal.Value.res_main_v7
  rw [hag.a0, hag.a5, hag.a6]
  rfl

set_option maxHeartbeats 2000000 in
/-- The edge sources are the reference's. -/
theorem X_v1 (hag : Agrees m c VR) : X m c (no_index (Proc.devRef .tc main_v1)) = Cert.ReferenceIdeal.Value.res_main_v1 VR := by
  refine (X_earlier m c main_v1 (by decide)).trans ?_
  show StableHlo.after (List.flatten [main_part0_ops0]) (fun b => m (c, b)) (Proc.devRef .tc main_v1) = _
  simp only [List.flatten_cons, List.flatten_nil, List.append_nil, main_part0_ops0]
  after_results_simp
  unfold Cert.ReferenceIdeal.Value.res_main_v1
  rw [hag.a3]
  rfl

set_option maxHeartbeats 2000000 in
/-- The edge targets are the reference's. -/
theorem X_v3 (hag : Agrees m c VR) : X m c (no_index (Proc.devRef .tc main_v3)) = Cert.ReferenceIdeal.Value.res_main_v3 VR := by
  refine (X_earlier m c main_v3 (by decide)).trans ?_
  show StableHlo.after (List.flatten [main_part0_ops0]) (fun b => m (c, b)) (Proc.devRef .tc main_v3) = _
  simp only [List.flatten_cons, List.flatten_nil, List.append_nil, main_part0_ops0]
  after_results_simp
  unfold Cert.ReferenceIdeal.Value.res_main_v3
  rw [hag.a3]
  rfl

/-- The region's first array is the reference's first two-fold host product. -/
theorem X_f1 (hag : Agrees m c VR) : X m c (no_index (Proc.devRef .tc main_v15_0))
    = Host.dotGeneral (F := Ideal) (φ₁ := .f32) (φ₂ := .f32) Cert.ReferenceIdeal.dot_S1000000x64_S64x128_S1000000x128_1_0_0_1_n_n none
        (Host.dotGeneral (F := Ideal) (φ₁ := .f32) (φ₂ := .f32) Cert.ReferenceIdeal.dot_S1000000x147_S147x64_S1000000x64_1_0_0_1_n_n none
          (VR (Proc.devRef .tc Cert.ReferenceIdeal.main_arg1)) (VR (Proc.devRef .tc Cert.ReferenceIdeal.main_arg7))) (VR (Proc.devRef .tc Cert.ReferenceIdeal.main_arg8)) := by
  rw [hag.a1, hag.a7, hag.a8]
  simp only [Host.dotGeneral]
  rw [dotGeneral_mm plainR_f1_first, dotGeneral_mm plainR_second]
  show X m c (Proc.devRef .tc (Pipeline.arrRef spec0 6)) = _
  unfold X
  rw [Pipeline.withArrays_arr spec0 launch0.win.arr_inj c _ _ 6, final6]

/-- The region's second array is the reference's second two-fold host product. -/
theorem X_f2 (hag : Agrees m c VR) : X m c (no_index (Proc.devRef .tc main_v15_1))
    = Host.dotGeneral (F := Ideal) (φ₁ := .f32) (φ₂ := .f32) Cert.ReferenceIdeal.dot_S1000000x64_S64x128_S1000000x128_1_0_0_1_n_n none
        (Host.dotGeneral (F := Ideal) (φ₁ := .f32) (φ₂ := .f32) Cert.ReferenceIdeal.dot_S1000000x21_S21x64_S1000000x64_1_0_0_1_n_n none
          (VR (Proc.devRef .tc Cert.ReferenceIdeal.main_arg2)) (VR (Proc.devRef .tc Cert.ReferenceIdeal.main_arg9))) (VR (Proc.devRef .tc Cert.ReferenceIdeal.main_arg10)) := by
  rw [hag.a2, hag.a9, hag.a10]
  simp only [Host.dotGeneral]
  rw [dotGeneral_mm plainR_f2_first, dotGeneral_mm plainR_second]
  show X m c (Proc.devRef .tc (Pipeline.arrRef spec0 7)) = _
  unfold X
  rw [Pipeline.withArrays_arr spec0 launch0.win.arr_inj c _ _ 7, final7]

/-! ## The first piece of the later lines -/

/-- The contents after the first piece: the first edge convolution, h1, and the start of the second. -/
def XA : Valuation τ sig (Elt Ideal) := StableHlo.after main_part0_ops1 (X m c)

end Cert.KernelIdeal.Hand

end
-- ==== Proof.EdgeTail.lean ====
/-
  The later host lines of the idealized kernel, read against the reference's named values.

  After the region the two programs run the same host lines on the same data: the gather of xh along the
  edge sources, the two scatter-adds onto the edge targets, the dense node chain with its three residual
  layers, the per-graph normalisation and the last linear layer.  The kernel's program names the gathered
  rows once and uses them twice where the reference gathers twice; as terms the two are the same.

  The reference's run names every value that is used more than once.  The kernel's lines are evaluated one
  piece at a time from the piece's entry contents — the second printed piece cut before the concatenation
  of h1 and h2, after h, and after the first residual layer, so that no value is ever written out more than a
  few times —, the entry contents are replaced by the reference's terms already established, and what is left
  on the two sides is one term, spelt with each program's own copy of the same dimension records.  No
  arithmetic law is used: every step is evaluation or a definitional unfolding.
-/
import proofs.«177343_j24163486008144_1_alg».proof.Proof.EdgeEntry

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)
open MatProd

variable (m : (ℓ : Loc nD τ sig) → Buf (Elt Ideal) ℓ) (c : Dev nD)
variable (VR : Valuation Cert.ReferenceIdeal.τ Cert.ReferenceIdeal.sig (Elt Ideal))

/-! ## The swish of a node array -/

/-- v * (1 / (1 + exp (-v))), as the host lines spell it. -/
def swishT (x : FVec Ideal S50000x128 .f32) : FVec Ideal S50000x128 .f32 :=
  mulf x (Host.divf (broadcastInDim S50000x128 ![] Facts₀.bcast_S_S50000x128 (constant S_ .f32 0x3F800000#32))
    (addf (broadcastInDim S50000x128 ![] Facts₀.bcast_S_S50000x128 (constant S_ .f32 0x3F800000#32)) (Host.exp (Host.negf x))))

set_option maxHeartbeats 4000000 in
/-- h1, the swish of the first convolution's pre-activation. -/
theorem XA_v43 (hag : Agrees m c VR) : XA m c (Proc.devRef .tc main_v43) = swishT (Cert.ReferenceIdeal.Value.res_main_v39 VR) := by
  unfold XA
  simp only [main_part0_ops1]
  after_results_simp
  simp only [X_f1 m c VR hag, X_v14 m c VR hag, X_v1 m c VR hag, X_v3 m c VR hag, X_arg11 m c VR hag, X_arg12 m c VR hag, X_arg13 m c VR hag, X_arg17 m c VR hag, X_arg18 m c VR hag]
  unfold Cert.ReferenceIdeal.Value.res_main_v39 swishT
  rfl

/-! ## The second piece, cut before the concatenation, after h and after the first residual layer -/

def B1a : List (HloOp τ sig (Elt Ideal)) := (main_part1_ops0).take 15
def B1b : List (HloOp τ sig (Elt Ideal)) := ((main_part1_ops0).drop 15).take 6
def B2 : List (HloOp τ sig (Elt Ideal)) := (((main_part1_ops0).drop 15).drop 6).take 18
def B3 : List (HloOp τ sig (Elt Ideal)) := (((main_part1_ops0).drop 15).drop 6).drop 18

theorem piece1_cut : (main_part1_ops0 : List (HloOp τ sig (Elt Ideal))) = B1a ++ (B1b ++ (B2 ++ B3)) := by
  unfold B1a B1b B2 B3
  rw [List.take_append_drop, List.take_append_drop, List.take_append_drop]

def XB1a : Valuation τ sig (Elt Ideal) := StableHlo.after B1a (XA m c)
def XB1b : Valuation τ sig (Elt Ideal) := StableHlo.after B1b (XB1a m c)
def XB2 : Valuation τ sig (Elt Ideal) := StableHlo.after B2 (XB1b m c)
def XB : Valuation τ sig (Elt Ideal) := StableHlo.after B3 (XB2 m c)
def XC : Valuation τ sig (Elt Ideal) := StableHlo.after main_part2_ops0 (XB m c)
def XD : Valuation τ sig (Elt Ideal) := StableHlo.after main_part3_ops0 (XC m c)

/-- The later lines run as one are the pieces run in turn. -/
theorem later_eq : StableHlo.after (List.flatten (laterLines : List (List (HloOp τ sig (Elt Ideal))))) (X m c) = XD m c := by
  unfold XD XC XB XB2 XB1b XB1a XA
  simp only [List.flatten_cons, List.flatten_nil, List.append_nil, StableHlo.after_append]
  rw [piece1_cut]
  simp only [StableHlo.after_append]

set_option maxHeartbeats 4000000 in
/-- The second convolution's pre-activation is the reference's. -/
theorem XB1a_v57 (hag : Agrees m c VR) : XB1a m c (no_index (Proc.devRef .tc main_v57)) = Cert.ReferenceIdeal.Value.res_main_v67 VR := by
  unfold XB1a
  simp only [B1a, main_part1_ops0, List.take_succ_cons, List.take_zero, List.drop_succ_cons, List.drop_zero]
  after_results_simp
  unfold XA
  simp only [main_part0_ops1]
  after_results_simp
  simp only [X_f2 m c VR hag, X_v14 m c VR hag, X_v1 m c VR hag, X_v3 m c VR hag, X_arg14 m c VR hag, X_arg15 m c VR hag, X_arg16 m c VR hag, X_arg19 m c VR hag, X_arg20 m c VR hag]
  unfold Cert.ReferenceIdeal.Value.res_main_v67
  rfl

set_option maxHeartbeats 4000000 in
/-- h2, the swish of the second convolution's pre-activation. -/
theorem XB1a_v64 (hag : Agrees m c VR) : XB1a m c (Proc.devRef .tc main_v64) = swishT (Cert.ReferenceIdeal.Value.res_main_v67 VR) := by
  unfold XB1a
  simp only [B1a, main_part1_ops0, List.take_succ_cons, List.take_zero, List.drop_succ_cons, List.drop_zero]
  after_results_simp
  unfold XA
  simp only [main_part0_ops1]
  after_results_simp
  simp only [X_f2 m c VR hag, X_v14 m c VR hag, X_v1 m c VR hag, X_v3 m c VR hag, X_arg14 m c VR hag, X_arg15 m c VR hag, X_arg16 m c VR hag, X_arg19 m c VR hag, X_arg20 m c VR hag]
  unfold Cert.ReferenceIdeal.Value.res_main_v67 swishT
  rfl

set_option maxHeartbeats 4000000 in
theorem XB1a_v43 (hag : Agrees m c VR) : XB1a m c (Proc.devRef .tc main_v43) = swishT (Cert.ReferenceIdeal.Value.res_main_v39 VR) := by
  unfold XB1a
  simp only [B1a, main_part1_ops0, List.take_succ_cons, List.take_zero, List.drop_succ_cons, List.drop_zero]
  after_results_simp
  exact XA_v43 m c VR hag

set_option maxHeartbeats 4000000 in
theorem XB1a_v14 (hag : Agrees m c VR) : XB1a m c (Proc.devRef .tc main_v14) = Cert.ReferenceIdeal.Value.res_main_v14 VR := by
  unfold XB1a
  simp only [B1a, main_part1_ops0, List.take_succ_cons, List.take_zero, List.drop_succ_cons, List.drop_zero]
  after_results_simp
  unfold XA
  simp only [main_part0_ops1]
  after_results_simp
  exact X_v14 m c VR hag

set_option maxHeartbeats 4000000 in
theorem XB1a_arg21 (hag : Agrees m c VR) : XB1a m c (Proc.devRef .tc main_arg21) = VR (Proc.devRef .tc Cert.ReferenceIdeal.main_arg21) := by
  unfold XB1a
  simp only [B1a, main_part1_ops0, List.take_succ_cons, List.take_zero, List.drop_succ_cons, List.drop_zero]
  after_results_simp
  unfold XA
  simp only [main_part0_ops1]
  after_results_simp
  exact X_arg21 m c VR hag

set_option maxHeartbeats 4000000 in
theorem XB1a_arg22 (hag : Agrees m c VR) : XB1a m c (Proc.devRef .tc main_arg22) = VR (Proc.devRef .tc Cert.ReferenceIdeal.main_arg22) := by
  unfold XB1a
  simp only [B1a, main_part1_ops0, List.take_succ_cons, List.take_zero, List.drop_succ_cons, List.drop_zero]
  after_results_simp
  unfold XA
  simp only [main_part0_ops1]
  after_results_simp
  exact X_arg22 m c VR hag

set_option maxHeartbeats 4000000 in
/-- h = concatenate [h1, h2] * lincat_w + lincat_b + xh is the reference's. -/
theorem XB1b_v70 (hag : Agrees m c VR) : XB1b m c (no_index (Proc.devRef .tc main_v70)) = Cert.ReferenceIdeal.Value.res_main_v80 VR := by
  unfold XB1b
  simp only [B1b, main_part1_ops0, List.take_succ_cons, List.take_zero, List.drop_succ_cons, List.drop_zero]
  after_results_simp
  rw [XB1a_v43 m c VR hag, XB1a_v64 m c VR hag, XB1a_arg21 m c VR hag, XB1a_arg22 m c VR hag, XB1a_v14 m c VR hag]
  unfold Cert.ReferenceIdeal.Value.res_main_v80 swishT
  rfl

set_option maxHeartbeats 8000000 in
/-- h after the first residual layer is the reference's. -/
theorem XB2_v86 (hag : Agrees m c VR) : XB2 m c (no_index (Proc.devRef .tc main_v86)) = Cert.ReferenceIdeal.Value.res_main_v96 VR := by
  unfold XB2
  simp only [B2, main_part1_ops0, List.take_succ_cons, List.take_zero, List.drop_succ_cons, List.drop_zero]
  after_results_simp
  simp only [XB1b_v70 m c VR hag]
  unfold XB1b
  simp only [B1b, main_part1_ops0, List.take_succ_cons, List.take_zero, List.drop_succ_cons, List.drop_zero]
  after_results_simp
  unfold XB1a
  simp only [B1a, main_part1_ops0, List.take_succ_cons, List.take_zero, List.drop_succ_cons, List.drop_zero]
  after_results_simp
  unfold XA
  simp only [main_part0_ops1]
  after_results_simp
  simp only [X_arg26 m c VR hag, X_arg27 m c VR hag]
  unfold Cert.ReferenceIdeal.Value.res_main_v96 Cert.ReferenceIdeal.Value.res_main_v88
  rfl

set_option maxHeartbeats 8000000 in
/-- h after the second residual layer is the reference's. -/
theorem XB_v102 (hag : Agrees m c VR) : XB m c (no_index (Proc.devRef .tc main_v102)) = Cert.ReferenceIdeal.Value.res_main_v112 VR := by
  unfold XB
  simp only [B3, main_part1_ops0, List.take_succ_cons, List.take_zero, List.drop_succ_cons, List.drop_zero]
  after_results_simp
  simp only [XB2_v86 m c VR hag]
  unfold XB2
  simp only [B2, main_part1_ops0, List.take_succ_cons, List.take_zero, List.drop_succ_cons, List.drop_zero]
  after_results_simp
  unfold XB1b
  simp only [B1b, main_part1_ops0, List.take_succ_cons, List.take_zero, List.drop_succ_cons, List.drop_zero]
  after_results_simp
  unfold XB1a
  simp only [B1a, main_part1_ops0, List.take_succ_cons, List.take_zero, List.drop_succ_cons, List.drop_zero]
  after_results_simp
  unfold XA
  simp only [main_part0_ops1]
  after_results_simp
  simp only [X_arg26 m c VR hag, X_arg27 m c VR hag]
  unfold Cert.ReferenceIdeal.Value.res_main_v112 Cert.ReferenceIdeal.Value.res_main_v104
  rfl

set_option maxHeartbeats 32000000 in
/-- THE RESULT: after the last piece the kernel's result buffer holds what the reference's run leaves in its own. -/
theorem XD_v167 (hag : Agrees m c VR) :
    XD m c (Proc.devRef .tc main_v167) = Cert.ReferenceIdeal.Value.val4 VR (Proc.devRef .tc Cert.ReferenceIdeal.main_v177) := by
  rw [Cert.ReferenceIdeal.Value.val4_main_v177 VR]
  unfold XD
  simp only [main_part3_ops0]
  after_results_simp
  unfold XC
  simp only [main_part2_ops0]
  after_results_simp
  simp only [XB_v102 m c VR hag]
  unfold XB
  simp only [B3, main_part1_ops0, List.take_succ_cons, List.take_zero, List.drop_succ_cons, List.drop_zero]
  after_results_simp
  simp only [XB2_v86 m c VR hag]
  unfold XB2
  simp only [B2, main_part1_ops0, List.take_succ_cons, List.take_zero, List.drop_succ_cons, List.drop_zero]
  after_results_simp
  unfold XB1b
  simp only [B1b, main_part1_ops0, List.take_succ_cons, List.take_zero, List.drop_succ_cons, List.drop_zero]
  after_results_simp
  unfold XB1a
  simp only [B1a, main_part1_ops0, List.take_succ_cons, List.take_zero, List.drop_succ_cons, List.drop_zero]
  after_results_simp
  unfold XA
  simp only [main_part0_ops1]
  after_results_simp
  simp only [X_arg4 m c VR hag, X_arg23 m c VR hag, X_arg24 m c VR hag, X_arg25 m c VR hag, X_arg26 m c VR hag, X_arg27 m c VR hag, X_arg28 m c VR hag, X_arg29 m c VR hag]
  unfold Cert.ReferenceIdeal.Value.res_main_v150 Cert.ReferenceIdeal.Value.res_main_v134 Cert.ReferenceIdeal.Value.res_main_v128 Cert.ReferenceIdeal.Value.res_main_v120 Cert.ReferenceIdeal.Value.res_main_v112 Cert.ReferenceIdeal.Value.res_main_v104
  rfl

/-- The later lines' result, from the contents the region leaves. -/
theorem later_result (hag : Agrees m c VR) :
    StableHlo.after (List.flatten (laterLines : List (List (HloOp τ sig (Elt Ideal))))) (X m c) (Proc.devRef .tc main_v167)
      = Cert.ReferenceIdeal.Value.val4 VR (Proc.devRef .tc Cert.ReferenceIdeal.main_v177) := by
  rw [later_eq]
  exact XD_v167 m c VR hag

end Cert.KernelIdeal.Hand

end
-- ==== Proof.lean ====
/-
  The certificate of the edge-MLP graph network: a kernel that computes the two edge-feature products
  f1 = (feature1 * f1_w1) * f1_w2 and f2 = (feature2 * f2_w1) * f2_w2 block by block in one region and leaves
  the rest of the network to host lines, against a reference that is host lines throughout.

  The three frames: the word-level kernel and its idealization run to the end, fault nowhere and leave their
  thirty argument arrays as launched (the body only reads its six input blocks; no host line writes an
  argument); the reference's frame is its run with the result dropped.  The ideal pass rewrote nothing, so
  the idealization is the program's own text read at the extended reals.

  The equivalence: at the extended reals a change of float format is the identity and both spellings of a
  matrix product are the same array of sums, and each entry of a two-fold product reads one row of its
  leftmost factor, so the hundred row bands the region writes make up the reference's two whole products.
  From there on the two programs apply the same host lines to the same arrays; the kernel's result buffer
  ends holding the very term the reference's run leaves in its own.  No finiteness of the inputs is used.
-/
import proofs.«177343_j24163486008144_1_alg».proof.Defs
import proofs.«177343_j24163486008144_1_alg».proof.Proof.Gen.Kernel
import proofs.«177343_j24163486008144_1_alg».proof.Proof.Gen.Kernel.Skeleton
import proofs.«177343_j24163486008144_1_alg».proof.Proof.Gen.Kernel.Launch
import proofs.«177343_j24163486008144_1_alg».proof.Proof.Gen.Kernel.Points
import proofs.«177343_j24163486008144_1_alg».proof.Proof.Gen.KernelIdeal
import proofs.«177343_j24163486008144_1_alg».proof.Proof.Gen.KernelIdeal.Skeleton
import proofs.«177343_j24163486008144_1_alg».proof.Proof.Gen.KernelIdeal.Launch
import proofs.«177343_j24163486008144_1_alg».proof.Proof.Gen.KernelIdeal.Points
import proofs.«177343_j24163486008144_1_alg».proof.Proof.Gen.ReferenceIdeal
import proofs.«177343_j24163486008144_1_alg».proof.Proof.Gen.ReferenceIdeal.Run
import proofs.«177343_j24163486008144_1_alg».proof.Proof.Gen.Pre_finite_inputs
import proofs.«177343_j24163486008144_1_alg».proof.Proof.EdgeRegionBits
import proofs.«177343_j24163486008144_1_alg».proof.Proof.EdgeRegionIdeal
import proofs.«177343_j24163486008144_1_alg».proof.Proof.EdgeTail
import Idealize.ShloMosaic.Adequacy
import Idealize.ShloMosaic.Init

set_option maxRecDepth 16384

noncomputable section

namespace Cert.Proof

open Idealize.ShloMosaic Idealize.SL.Sem

/-- The word-level kernel runs and keeps its arguments. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

set_option maxHeartbeats 16000000 in
/-- From memories that agree on the thirty arguments both idealized programs run, keep their arguments, and end
    with one and the same result array: the reference's final term at its own launch contents. -/
theorem algebraic : Cert.algebraic_KernelIdeal_ReferenceIdeal := by
  intro m ρ m' ρ' _ hagree
  have hag : ∀ c, Cert.KernelIdeal.Hand.Agrees m c (StableHlo.launchContents m' c) := fun c =>
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2.1, (hagree c).2.2.2.2.2.2.2.2.2.2.2.2.2.2.2.2.2.2.2.2.2.2.2.2.2.2.2.2.2⟩
  refine ⟨fun c => Cert.ReferenceIdeal.Value.val4 (StableHlo.launchContents m' c) (Proc.devRef .tc Cert.ReferenceIdeal.main_v177), ?_, ?_⟩
  · exact (θ_run Cert.KernelIdeal.defs _ _).mono (fun r h c =>
      ⟨((h c).2 Cert.KernelIdeal.main_v167 (Pipeline.mem_restRefs_of Cert.KernelIdeal.main_v167 (by decide) (by decide))).trans
          (Cert.KernelIdeal.Hand.later_result m c _ (hag c)),
        Cert.KernelIdeal.Hand.kept_main_arg0 m c r h, Cert.KernelIdeal.Hand.kept_main_arg1 m c r h, Cert.KernelIdeal.Hand.kept_main_arg2 m c r h, Cert.KernelIdeal.Hand.kept_main_arg3 m c r h, Cert.KernelIdeal.Hand.kept_main_arg4 m c r h, Cert.KernelIdeal.Hand.kept_main_arg5 m c r h, Cert.KernelIdeal.Hand.kept_main_arg6 m c r h, Cert.KernelIdeal.Hand.kept_main_arg7 m c r h, Cert.KernelIdeal.Hand.kept_main_arg8 m c r h, Cert.KernelIdeal.Hand.kept_main_arg9 m c r h, Cert.KernelIdeal.Hand.kept_main_arg10 m c r h, Cert.KernelIdeal.Hand.kept_main_arg11 m c r h, Cert.KernelIdeal.Hand.kept_main_arg12 m c r h, Cert.KernelIdeal.Hand.kept_main_arg13 m c r h, Cert.KernelIdeal.Hand.kept_main_arg14 m c r h, Cert.KernelIdeal.Hand.kept_main_arg15 m c r h, Cert.KernelIdeal.Hand.kept_main_arg16 m c r h, Cert.KernelIdeal.Hand.kept_main_arg17 m c r h, Cert.KernelIdeal.Hand.kept_main_arg18 m c r h, Cert.KernelIdeal.Hand.kept_main_arg19 m c r h, Cert.KernelIdeal.Hand.kept_main_arg20 m c r h, Cert.KernelIdeal.Hand.kept_main_arg21 m c r h, Cert.KernelIdeal.Hand.kept_main_arg22 m c r h, Cert.KernelIdeal.Hand.kept_main_arg23 m c r h, Cert.KernelIdeal.Hand.kept_main_arg24 m c r h, Cert.KernelIdeal.Hand.kept_main_arg25 m c r h, Cert.KernelIdeal.Hand.kept_main_arg26 m c r h, Cert.KernelIdeal.Hand.kept_main_arg27 m c r h, Cert.KernelIdeal.Hand.kept_main_arg28 m c r h, Cert.KernelIdeal.Hand.kept_main_arg29 m c r h⟩)
      (Cert.KernelIdeal.Hand.run_main (F := Ideal) m ρ)
  · exact (θ_run Cert.ReferenceIdeal.defs _ _).mono (fun r h c =>
      ⟨(h c).1.trans (Cert.ReferenceIdeal.Value.val4_main_v177 (StableHlo.launchContents m' c)).symm, (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
